-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S200x64 : Shape := ⟨2, ![200, 64]⟩
abbrev S200 : Shape := ⟨1, ![200]⟩
abbrev S200x1 : Shape := ⟨2, ![200, 1]⟩

abbrev nBuf : Space → Nat
  | .hbm => 7
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S1x64, .f32⟩
  | .hbm, ⟨5, _⟩ => ⟨S10000x64, .f32⟩
  | .hbm, ⟨6, _⟩ => ⟨S10000x64, .f32⟩
  | .local _ .vmem, ⟨0, _⟩ => ⟨S10000x128, .f32⟩
  | .local _ .vmem, ⟨1, _⟩ => ⟨S128x64, .f32⟩
  | .local _ .vmem, ⟨2, _⟩ => ⟨S1x64, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x64, .f32⟩
  | .local _ .vmem, ⟨8, _⟩ => ⟨S400x64, .f32⟩
  | .local _ .vmem, ⟨9, _⟩ => ⟨S400x64, .f32⟩
  | .local _ .vmem, ⟨10, _⟩ => ⟨S400x64, .f32⟩
  | .local _ .vmem, ⟨11, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S400x64_S200x64_0_0 : ∀ a, (![0, 0] : Fin 2 → Nat) a + S200x64.size a ≤ S400x64.size a
  h_S200x64 : 0 < S200x64.numel
  reduces_S200x64_S200 : S200x64.Reduces [1] S200
  shapeCasts_S200_S200x1 : S200.ShapeCasts S200x1
  broadcasts_S200x1_S200x64 : S200x1.Broadcasts S200x64
  inb_S400x64_S200x64_200_0 : ∀ a, (![200, 0] : Fin 2 → Nat) a + S200x64.size a ≤ S400x64.size a
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S400x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S10000x64, .f32⟩
  | .hbm, ⟨5, _⟩ => ⟨S10000x64, .f32⟩
  | .hbm, ⟨6, _⟩ => ⟨S1x64, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S_, .f32⟩
  | .hbm, ⟨19, _⟩ => ⟨S10000, .f32⟩
  | .hbm, ⟨20, _⟩ => ⟨S10000x1, .f32⟩
  | .hbm, ⟨21, _⟩ => ⟨S10000x1, .f32⟩
  | .hbm, ⟨22, _⟩ => ⟨S10000x64, .f32⟩
  | .hbm, ⟨23, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.LibSharedArrays.lean ====
/-
  A pipeline's frame run when several INPUT windows read one array.

  The launch hands the region every unscoped buffer whole, at the full share. When two windows of the pipeline name the same
  array, the buffers behind the arrays are fewer than the windows, and the proof says how the one buffer's full share is dealt
  among the windows on it (`hsplit`). Everything else is as for distinct arrays: the invariant is entered from the kernel's
  scoped buffers at anything and gives them back at the end, the unscoped buffers that are no window's array pass by the
  region untouched, and the final state has every window's array at the contents the proof data computes.
-/
import Idealize.ShloMosaic.Lib.Pipeline.Frame

noncomputable section

namespace Idealize.ShloMosaic.Pipeline.SharedArrays

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of one region whose windows may share arrays, with an invariant the proof states point by point: every
    weakly fair execution terminates, each window's array ends at the proof data's `arrAt w N`, and every other unscoped
    buffer ends as it was at the region's entry. The kernel uses no semaphore of its own and the generator register is let go. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) (Entails.of_eq (ownU_emb₁ _)) V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro H; isplitr; · iempintro
      iexact H)
    (hin := fun c => (show iprop(emp ∗ (scopedRest (cfg).spec c : sProp 𝕄)) ⊢ (scopedRest (cfg).spec c : sProp 𝕄) from by
      iintro ⟨-, H⟩; iexact H).trans (hin c))
    (hout := fun c => (hout c).trans (by
      iintro H; isplitr; · iempintro
      iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedArrays

end
-- ==== Proof.KB.Region.lean ====
/-
  The kernel's region, seen from one core: what the arrays hold when the region is entered (the bias has been reshaped to a
  row by the one host operation before it), each window's block at a grid point read off those arrays, the one branch of the
  body (taken at the first grid point only, where the feature product is stored into the scratch), and the staging memrefs
  the body is called with at a point.
-/
import proofs.«143370_g44306882625586_cont_8to1c4_829_12_alg».proof.Proof.Gen.Kernel.Launch
import proofs.«143370_g44306882625586_cont_8to1c4_829_12_alg».proof.Proof.Gen.Kernel.Skeleton
import proofs.«143370_g44306882625586_cont_8to1c4_829_12_alg».proof.Proof.Gen.Kernel.Points
import proofs.«143370_g44306882625586_cont_8to1c4_829_12_alg».proof.Proof.LibSharedArrays
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s TensorCore buffers when the region is entered: the launch contents after the bias's reshape. -/
abbrev V (c : Dev nD) (b : Ref sig .tc) : Buf (Elt F) ((c : Thread nD τ).loc b) :=
  StableHlo.after (hostOps0 (F := F)) (fun b => m (c, b)) b

theorem hostOps0_fresh : (hostOps0 : List (HloOp τ sig (Elt F))).Forall fun op => op.fresh = ∅ := by
  simp only [List.Forall]; first | rfl | trivial | (repeat' constructor)

/-- @main is the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The argument arrays are not written by the reshape. -/
theorem V_arg0 (c : Dev nD) : V m c main_arg0 = m ((c : Thread nD τ).loc main_arg0) := by
  dsimp only [V, hostOps0]; after_results <;> rfl
theorem V_arg1 (c : Dev nD) : V m c main_arg1 = m ((c : Thread nD τ).loc main_arg1) := by
  dsimp only [V, hostOps0]; after_results <;> rfl
theorem V_arg2 (c : Dev nD) : V m c main_arg2 = m ((c : Thread nD τ).loc main_arg2) := by
  dsimp only [V, hostOps0]; after_results <;> rfl
theorem V_arg3 (c : Dev nD) : V m c main_arg3 = m ((c : Thread nD τ).loc main_arg3) := by
  dsimp only [V, hostOps0]; after_results <;> rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data whose
    array is the region-entry contents and whose body leaves the block in place: unfetched, the block index has not moved.
    One statement per input window (the block's index type computes at a literal window). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch condition, from the grid coordinate: the point is the grid's first. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

/-- No window is idle anywhere. -/
theorem live : ∀ (w : Fin cfg0.W) (i : grid0.Coords), cfg0.idle w i = false := by
  intro w i; rfl

/-! ## The memrefs the body is called with at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The scratch that holds the feature product from the first point on. -/
abbrev scM : Memref sig .tc .vmem S10000x64 .f32 := Memref.whole cc0_scratch0
/-- The views through which what the outputs' buffers and the scratch hold is stated. -/
abbrev VO5 : View sig .tc .vmem S400x64 .f32 := (Memref.whole cc0_stg5_0 : Memref sig .tc .vmem S400x64 .f32).view
abbrev VO6 : View sig .tc .vmem S400x64 .f32 := (Memref.whole cc0_stg6_0 : Memref sig .tc .vmem S400x64 .f32).view
abbrev VS : View sig .tc .vmem S10000x64 .f32 := scM.view

/-- The kernel's scoped buffers besides the staging buffers are the one scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.KB.RunFirst.lean ====
/-
  The whole body at the grid's FIRST point, on any whole staging memrefs: the feature matrix and the weights are loaded and
  their product stored into the scratch; then, for each of the two row-blocks of the adjacency handed to the body, the block
  times the scratch plus the bias row is stored into its half of the second output's buffer and its row-wise logarithmic
  softmax into the same half of the first output's. What each written buffer ends with is found by the run, as the list of
  the pieces the stores leave.
-/
import proofs.«143370_g44306882625586_cont_8to1c4_829_12_alg».proof.Proof.KB.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point: from the five inputs' buffers at their contents and the two outputs' and the scratch at
    anything, to the inputs as they were and the three written buffers with their pieces. -/
noncomputable def runFirst (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x64 .f32) (harg6 : arg6.IsWhole) (arg7 : Memref sig .tc .vmem S400x64 .f32) (harg7 : arg7.IsWhole) (arg8 : Memref sig .tc .vmem S10000x64 .f32) (harg8 : arg8.IsWhole) (hc : atFirst i)
    (x0 : Vec F S10000x128 .f32) (x1 : Vec F S128x64 .f32) (x2 : Vec F S1x64 .f32) (x3 : Vec F S200x10000 .f32) (x4 : Vec F S200x10000 .f32) :
    Σ' (L6 : List (View.Piece (Elt F) S400x64 .f32)) (L7 : List (View.Piece (Elt F) S400x64 .f32)), { L8 : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, ?_, ?_, fun E K => ?run⟩
  case run =>
    simp only [cc0__gcn_kernel_eq_skeleton]; unfold cc0__gcn_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.Kernel.Hand

end
-- ==== Proof.KB.RunLater.lean ====
/-
  The whole body at a LATER grid point: the branch is not taken, the scratch is only read — it still holds the feature
  product — and the two row-blocks are treated as at the first point.
-/
import proofs.«143370_g44306882625586_cont_8to1c4_829_12_alg».proof.Proof.KB.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point: from the five inputs' buffers and the scratch at their contents and the two outputs' at
    anything, to the inputs and the scratch as they were and the two outputs' buffers with their pieces. -/
noncomputable def runLater (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x64 .f32) (harg6 : arg6.IsWhole) (arg7 : Memref sig .tc .vmem S400x64 .f32) (harg7 : arg7.IsWhole) (arg8 : Memref sig .tc .vmem S10000x64 .f32) (harg8 : arg8.IsWhole) (hc : ¬atFirst i)
    (x0 : Vec F S10000x128 .f32) (x1 : Vec F S128x64 .f32) (x2 : Vec F S1x64 .f32) (x3 : Vec F S200x10000 .f32) (x4 : Vec F S200x10000 .f32) (xs : Vec F S10000x64 .f32) :
    Σ' (L6 : List (View.Piece (Elt F) S400x64 .f32)), { L7 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg1.eq_unread hf1; obtain rfl := harg2.eq_unread hf2; obtain rfl := harg3.eq_unread hf3
    obtain rfl := harg4.eq_unread hf4; obtain rfl := harg5.eq_unread hf5; obtain rfl := harg8.eq_unread hf8
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; isplitr; · ipureintro; exact harg8.read_unread _
    iexact H8

end Cert.Kernel.Hand

end
-- ==== Proof.KB.Obligation.lean ====
/-
  The frame of the kernel's one region. Windows 3 and 4 both read the adjacency matrix (its even and its odd row-blocks of
  200 rows), so the matrix's buffer is dealt between them, half a share each; every other array is held whole. The scratch
  holds anything before the first grid point and the feature product from then on: the body stores it at the first point and
  only reads it afterwards. After the body at a point each input's buffer holds its block, and the two outputs' buffers hold
  what the point's run left in them.
-/
import proofs.«143370_g44306882625586_cont_8to1c4_829_12_alg».proof.Proof.KB.RunLater
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, by decide⟩

/-! ## What the runs leave -/

/-- The first point's run, at that point's memrefs and blocks. -/
abbrev firstRun (c : Dev nD) := (runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM (Memref.isWhole_whole _) ((atFirst_iff t0).mpr rfl) (iblk m c 0 t0) (iblk m c 1 t0) (iblk m c 2 t0) (iblk m c 3 t0) (iblk m c 4 t0))

/-- The first point's store into the scratch covers it: one piece, the whole scratch. -/
theorem coverScr (c : Dev nD) (y : S10000x64.Idx) : ∃ pc ∈ (firstRun m c).2.2.1, y ∈ pc.1.set :=
  View.cover_of_tiledL (firstRun m c).2.2.1 S10000x64.size (by sl_kernel_rfl) y

/-- What the scratch holds from the first point on: the first run's piece read back. -/
def scr (c : Dev nD) : Vec F S10000x64 .f32 := VS.read (Elt F) (VS.writes (Elt F) VS.junk (firstRun m c).2.2.1)

/-- The two stores into an output's buffer at a point — its upper and its lower 200 rows — cover it. -/
theorem cover5F (c : Dev nD) (t : Fin cfg0.N) (h : atFirst (grid0.coords t)) (y : S400x64.Idx) : ∃ pc ∈ (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).1 S200x64.size (by sl_kernel_rfl) y
theorem cover6F (c : Dev nD) (t : Fin cfg0.N) (h : atFirst (grid0.coords t)) (y : S400x64.Idx) : ∃ pc ∈ (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).2.1 S200x64.size (by sl_kernel_rfl) y
theorem cover5L (c : Dev nD) (t : Fin cfg0.N) (h : ¬atFirst (grid0.coords t)) (y : S400x64.Idx) : ∃ pc ∈ (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).1, y ∈ pc.1.set :=
  View.cover_of_tiledL (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).1 S200x64.size (by sl_kernel_rfl) y
theorem cover6L (c : Dev nD) (t : Fin cfg0.N) (h : ¬atFirst (grid0.coords t)) (y : S400x64.Idx) : ∃ pc ∈ (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).2.1, y ∈ pc.1.set :=
  View.cover_of_tiledL (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).2.1 S200x64.size (by sl_kernel_rfl) y

/-- What the first output's buffer (the logarithmic softmax) holds after the body at point `t`. -/
def out5 (c : Dev nD) (t : Fin cfg0.N) : Vec F S400x64 .f32 :=
  if h : atFirst (grid0.coords t) then VO5.read (Elt F) (VO5.writes (Elt F) VO5.junk (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).1)
  else VO5.read (Elt F) (VO5.writes (Elt F) VO5.junk (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).1)
/-- What the second output's buffer (the layer's output before the softmax) holds after the body at point `t`. -/
def out6 (c : Dev nD) (t : Fin cfg0.N) : Vec F S400x64 .f32 :=
  if h : atFirst (grid0.coords t) then VO6.read (Elt F) (VO6.writes (Elt F) VO6.junk (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).2.1)
  else VO6.read (Elt F) (VO6.writes (Elt F) VO6.junk (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).2.1)

/-! ## The invariant and the proof data -/

/-- Before position `n`: the scratch at anything before the first point, at the feature product afterwards. -/
def Phi (c : Dev nD) : ℕ → sProp 𝕄
  | 0 => iprop(∃ d, owns (c : Thread nD τ) scM fullShare d)
  | _ + 1 => owns (c : Thread nD τ) scM fullShare (scr m c)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := Phi m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; at the first point the scratch is at anything and the
    first run applies, leaving the feature product in it; at a later point the scratch holds the product and the later
    run applies, leaving it there. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, after0, after1, after2, after3, after4, after5, after6]
  rw [show (dats m 0 c).owesAt () t.succ = (dats m 0 c).owesAt () t.castSucc from rfl]
  rw [show (dats m 0 c).Φ t.succ = owns (c : Thread nD τ) scM fullShare (scr m c) from rfl]
  by_cases h0 : t.val = 0
  · have hc : atFirst (grid0.coords t) := (atFirst_iff t).mpr h0
    obtain rfl : t = t0 := Fin.ext h0
    rw [show (dats m 0 c).Φ (t0 : Fin cfg0.N).castSucc = iprop(∃ d, owns (c : Thread nD τ) scM fullShare d) from rfl]
    unfold out5 out6 scr
    rw [dif_pos hc, dif_pos hc]
    iintro ⟨HS, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM (Memref.isWhole_whole _) hc (iblk m c 0 t0) (iblk m c 1 t0) (iblk m c 2 t0) (iblk m c 3 t0) (iblk m c 4 t0)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%e8, H8⟩⟩
    isplitl [H8]
    · unfold owns; iexists _; isplitr
      swap; · iexact H8
      ipureintro; exact View.read_writes_of_cover _ _ _ _ _ (coverScr m c)
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5F m c t0 hc)
    · unfold owns; iexists _; isplitr
      swap; · iexact H6
      ipureintro; exact View.read_writes_of_cover _ _ _ _ _ (cover6F m c t0 hc)
  · have hc : ¬atFirst (grid0.coords t) := fun h => h0 ((atFirst_iff t).mp h)
    rw [show (dats m 0 c).Φ t.castSucc = owns (c : Thread nD τ) scM fullShare (scr m c) from by
      obtain ⟨n, hn⟩ := t
      cases n with
      | zero => exact absurd rfl h0
      | succ n => rfl]
    unfold out5 out6
    rw [dif_neg hc, dif_neg hc]
    iintro ⟨HS, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc (iblk m c 0 t) (iblk m c 1 t) (iblk m c 2 t) (iblk m c 3 t) (iblk m c 4 t) (scr m c)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, H8⟩
    isplitl [H8]; · iexact H8
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5L m c t hc)
    · unfold owns; iexists _; isplitr
      swap; · iexact H6
      ipureintro; exact View.read_writes_of_cover _ _ _ _ _ (cover6L m c t hc)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KB.Frame.lean ====
/-
  The region's launch and the frame. The buffers behind the windows' arrays are six (the adjacency matrix is behind two
  windows); held whole at the region's entry, they make the pipeline's arrays once the matrix's full share is cut into the
  two halves its two windows hold. The invariant is entered from the scratch at anything and gives it back at the end. The
  run then says what every window's array holds at the end, and every other unscoped buffer is as at the entry: in
  particular the four argument arrays are unchanged.
-/
import proofs.«143370_g44306882625586_cont_8to1c4_829_12_alg».proof.Proof.KB.Obligation

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the seven windows' arrays. -/
theorem arrRefs_eq : Finset.univ.image (Pipeline.arrRef spec0)
    = ([main_arg0, main_arg2, main_v0, main_arg1, main_v1_0, main_v1_1] : List (Ref sig .tc)).toFinset := by decide

/-- The pipeline's arrays as points-tos of the buffers behind them, each at its window's share. -/
theorem arrays_eq (c : Dev nD) (G : (w : Fin cfg0.W) → Buf (Elt F) ((cfg0.win w).arr.view.loc (c.tc : Thread nD τ))) :
    (dats m 0 c).arrays G
      = bigSep Finset.univ fun w : Fin 7 => (((c.tc : Thread nD τ).loc (Pipeline.arrRef spec0 w)) ↦{(dats m 0 c).share w} G w : sProp 𝕄) := by
  unfold Dat.arrays
  exact bigSep_congr fun w _ => by rw [(arr_whole0 w).set_eq_univ]

/-- The six buffers held whole are the seven windows' arrays at their shares: the adjacency matrix's full share is its two
    windows' halves. -/
theorem hsplit (c : Dev nD) :
    (Pipeline.arrBufs spec0 c (V m c) : sProp 𝕄) ⊢ (dats m 0 c).arrays ((dats m 0 c).arrAt · 0) := by
  unfold Pipeline.arrBufs
  rw [arrays_eq, bigSep_W0, bigSep_eq_bigSepL_of_eq _ arrRefs_eq (by decide)]
  show iprop((((c.tc : Thread nD τ).loc main_arg0) ↦{fullShare} V m c main_arg0)
        ∗ (((c.tc : Thread nD τ).loc main_arg2) ↦{fullShare} V m c main_arg2)
        ∗ (((c.tc : Thread nD τ).loc main_v0) ↦{fullShare} V m c main_v0)
        ∗ (((c.tc : Thread nD τ).loc main_arg1) ↦{fullShare} V m c main_arg1)
        ∗ (((c.tc : Thread nD τ).loc main_v1_0) ↦{fullShare} V m c main_v1_0)
        ∗ (((c.tc : Thread nD τ).loc main_v1_1) ↦{fullShare} V m c main_v1_1))
    ⊢ (iprop((((c.tc : Thread nD τ).loc main_arg0) ↦{fullShare} V m c main_arg0)
        ∗ (((c.tc : Thread nD τ).loc main_arg2) ↦{fullShare} V m c main_arg2)
        ∗ (((c.tc : Thread nD τ).loc main_v0) ↦{fullShare} V m c main_v0)
        ∗ (((c.tc : Thread nD τ).loc main_arg1) ↦{fullShare.left} V m c main_arg1)
        ∗ (((c.tc : Thread nD τ).loc main_arg1) ↦{fullShare.right} V m c main_arg1)
        ∗ (((c.tc : Thread nD τ).loc main_v1_0) ↦{fullShare} V m c main_v1_0)
        ∗ (((c.tc : Thread nD τ).loc main_v1_1) ↦{fullShare} V m c main_v1_1)) : sProp 𝕄)
  iintro ⟨H0, H2, Hv, H1, H5, H6⟩
  ihave H1 := (pointsTo_share (PosShare.mem_left_op_right fullShare)).1 $$ H1
  icases H1 with ⟨Ha, Hb⟩
  isplitl [H0]; · iexact H0
  isplitl [H2]; · iexact H2
  isplitl [Hv]; · iexact Hv
  isplitl [Ha]; · iexact Ha
  isplitl [Hb]; · iexact Hb
  isplitl [H5]; · iexact H5
  iexact H6

theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_scratch]
  exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [scopedRest_scratch]
  show owns (c : Thread nD τ) scM fullShare (scr m c) ⊢ _
  iintro H; iexists _; iexact H

set_option backward.isDefEq.respectTransparency.types false in
/-- Every weakly fair execution of @main terminates; at the end every window's array holds what the proof data computes,
    and every other unscoped buffer what it held at the region's entry. -/
theorem run_main : θ_run defs (onTc (τ := τ) (main (F := F))) (s₀ m ρ) (Pipeline.FramePost cfgs (dats m) 0 (V m)) :=
  Pipeline.SharedArrays.θ_run_frame_shared cfgs (dats m) (0 : Fin 1) defs₀ Variants.none cellOf_inj winFacts₀0 block_pos0 arr_whole0 stage_whole0
    m ρ main (fun c => (body_obligation m c).loose) (fun _ _ => rfl) (V m) (hmain m Variants.none) (hsplit m) (hin m) (hout m)

/-- info: 'Cert.Kernel.Hand.run_main' depends on axioms: [propext, Classical.choice, Quot.sound] -/
#guard_msgs in #print axioms run_main

/-- The frame: the program runs to the end, and the four argument arrays end as they began (the three the region stages are
    never written back; the bias is touched only by the reshape, which reads it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 0).trans (((dats m 0 c).arrAt_in 0 rfl _).trans ((A_eq m c 0).trans (V_arg0 m c))),
     ((h c).1 3).trans (((dats m 0 c).arrAt_in 3 rfl _).trans ((A_eq m c 3).trans (V_arg1 m c))),
     ((h c).1 1).trans (((dats m 0 c).arrAt_in 1 rfl _).trans ((A_eq m c 1).trans (V_arg2 m c))),
     ((h c).2 main_arg3 (Pipeline.mem_restRefs_of main_arg3 rfl (by decide))).trans (V_arg3 m c)⟩) (run_main m ρ)

end Cert.Kernel.Hand

end
-- ==== Proof.KI.Region.lean ====
/-
  The kernel's region, seen from one core: what the arrays hold when the region is entered (the bias has been reshaped to a
  row by the one host operation before it), each window's block at a grid point read off those arrays, the one branch of the
  body (taken at the first grid point only, where the feature product is stored into the scratch), and the staging memrefs
  the body is called with at a point.
-/
import proofs.«143370_g44306882625586_cont_8to1c4_829_12_alg».proof.Proof.Gen.KernelIdeal.Launch
import proofs.«143370_g44306882625586_cont_8to1c4_829_12_alg».proof.Proof.Gen.KernelIdeal.Skeleton
import proofs.«143370_g44306882625586_cont_8to1c4_829_12_alg».proof.Proof.Gen.KernelIdeal.Points
import proofs.«143370_g44306882625586_cont_8to1c4_829_12_alg».proof.Proof.LibSharedArrays
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s TensorCore buffers when the region is entered: the launch contents after the bias's reshape. -/
abbrev V (c : Dev nD) (b : Ref sig .tc) : Buf (Elt F) ((c : Thread nD τ).loc b) :=
  StableHlo.after (hostOps0 (F := F)) (fun b => m (c, b)) b

theorem hostOps0_fresh : (hostOps0 : List (HloOp τ sig (Elt F))).Forall fun op => op.fresh = ∅ := by
  simp only [List.Forall]; first | rfl | trivial | (repeat' constructor)

/-- @main is the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The argument arrays are not written by the reshape. -/
theorem V_arg0 (c : Dev nD) : V m c main_arg0 = m ((c : Thread nD τ).loc main_arg0) := by
  dsimp only [V, hostOps0]; after_results <;> rfl
theorem V_arg1 (c : Dev nD) : V m c main_arg1 = m ((c : Thread nD τ).loc main_arg1) := by
  dsimp only [V, hostOps0]; after_results <;> rfl
theorem V_arg2 (c : Dev nD) : V m c main_arg2 = m ((c : Thread nD τ).loc main_arg2) := by
  dsimp only [V, hostOps0]; after_results <;> rfl
theorem V_arg3 (c : Dev nD) : V m c main_arg3 = m ((c : Thread nD τ).loc main_arg3) := by
  dsimp only [V, hostOps0]; after_results <;> rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data whose
    array is the region-entry contents and whose body leaves the block in place: unfetched, the block index has not moved.
    One statement per input window (the block's index type computes at a literal window). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch condition, from the grid coordinate: the point is the grid's first. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

/-- No window is idle anywhere. -/
theorem live : ∀ (w : Fin cfg0.W) (i : grid0.Coords), cfg0.idle w i = false := by
  intro w i; rfl

/-! ## The memrefs the body is called with at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The scratch that holds the feature product from the first point on. -/
abbrev scM : Memref sig .tc .vmem S10000x64 .f32 := Memref.whole cc0_scratch0
/-- The views through which what the outputs' buffers and the scratch hold is stated. -/
abbrev VO5 : View sig .tc .vmem S400x64 .f32 := (Memref.whole cc0_stg5_0 : Memref sig .tc .vmem S400x64 .f32).view
abbrev VO6 : View sig .tc .vmem S400x64 .f32 := (Memref.whole cc0_stg6_0 : Memref sig .tc .vmem S400x64 .f32).view
abbrev VS : View sig .tc .vmem S10000x64 .f32 := scM.view

/-- The kernel's scoped buffers besides the staging buffers are the one scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KI.RunFirst.lean ====
/-
  The whole body at the grid's FIRST point, on any whole staging memrefs: the feature matrix and the weights are loaded and
  their product stored into the scratch; then, for each of the two row-blocks of the adjacency handed to the body, the block
  times the scratch plus the bias row is stored into its half of the second output's buffer and its row-wise logarithmic
  softmax into the same half of the first output's. What each written buffer ends with is found by the run, as the list of
  the pieces the stores leave.
-/
import proofs.«143370_g44306882625586_cont_8to1c4_829_12_alg».proof.Proof.KI.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point: from the five inputs' buffers at their contents and the two outputs' and the scratch at
    anything, to the inputs as they were and the three written buffers with their pieces. -/
noncomputable def runFirst (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x64 .f32) (harg6 : arg6.IsWhole) (arg7 : Memref sig .tc .vmem S400x64 .f32) (harg7 : arg7.IsWhole) (arg8 : Memref sig .tc .vmem S10000x64 .f32) (harg8 : arg8.IsWhole) (hc : atFirst i)
    (x0 : Vec F S10000x128 .f32) (x1 : Vec F S128x64 .f32) (x2 : Vec F S1x64 .f32) (x3 : Vec F S200x10000 .f32) (x4 : Vec F S200x10000 .f32) :
    Σ' (L6 : List (View.Piece (Elt F) S400x64 .f32)) (L7 : List (View.Piece (Elt F) S400x64 .f32)), { L8 : List (View.Piece (Elt F) S10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, ?_, ?_, fun E K => ?run⟩
  case run =>
    simp only [cc0__gcn_kernel_eq_skeleton]; unfold cc0__gcn_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Hand

end
-- ==== Proof.KI.RunLater.lean ====
/-
  The whole body at a LATER grid point: the branch is not taken, the scratch is only read — it still holds the feature
  product — and the two row-blocks are treated as at the first point.
-/
import proofs.«143370_g44306882625586_cont_8to1c4_829_12_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point: from the five inputs' buffers and the scratch at their contents and the two outputs' at
    anything, to the inputs and the scratch as they were and the two outputs' buffers with their pieces. -/
noncomputable def runLater (c : Dev nD) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x64 .f32) (harg6 : arg6.IsWhole) (arg7 : Memref sig .tc .vmem S400x64 .f32) (harg7 : arg7.IsWhole) (arg8 : Memref sig .tc .vmem S10000x64 .f32) (harg8 : arg8.IsWhole) (hc : ¬atFirst i)
    (x0 : Vec F S10000x128 .f32) (x1 : Vec F S128x64 .f32) (x2 : Vec F S1x64 .f32) (x3 : Vec F S200x10000 .f32) (x4 : Vec F S200x10000 .f32) (xs : Vec F S10000x64 .f32) :
    Σ' (L6 : List (View.Piece (Elt F) S400x64 .f32)), { L7 : List (View.Piece (Elt F) S400x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg1.eq_unread hf1; obtain rfl := harg2.eq_unread hf2; obtain rfl := harg3.eq_unread hf3
    obtain rfl := harg4.eq_unread hf4; obtain rfl := harg5.eq_unread hf5; obtain rfl := harg8.eq_unread hf8
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; isplitr; · ipureintro; exact harg8.read_unread _
    iexact H8

end Cert.KernelIdeal.Hand

end
-- ==== Proof.KI.Obligation.lean ====
/-
  The frame of the kernel's one region. Windows 3 and 4 both read the adjacency matrix (its even and its odd row-blocks of
  200 rows), so the matrix's buffer is dealt between them, half a share each; every other array is held whole. The scratch
  holds anything before the first grid point and the feature product from then on: the body stores it at the first point and
  only reads it afterwards. After the body at a point each input's buffer holds its block, and the two outputs' buffers hold
  what the point's run left in them.
-/
import proofs.«143370_g44306882625586_cont_8to1c4_829_12_alg».proof.Proof.KI.RunLater
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, by decide⟩

/-! ## What the runs leave -/

/-- The first point's run, at that point's memrefs and blocks. -/
abbrev firstRun (c : Dev nD) := (runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM (Memref.isWhole_whole _) ((atFirst_iff t0).mpr rfl) (iblk m c 0 t0) (iblk m c 1 t0) (iblk m c 2 t0) (iblk m c 3 t0) (iblk m c 4 t0))

/-- The first point's store into the scratch covers it: one piece, the whole scratch. -/
theorem coverScr (c : Dev nD) (y : S10000x64.Idx) : ∃ pc ∈ (firstRun m c).2.2.1, y ∈ pc.1.set :=
  View.cover_of_tiledL (firstRun m c).2.2.1 S10000x64.size (by sl_kernel_rfl) y

/-- What the scratch holds from the first point on: the first run's piece read back. -/
def scr (c : Dev nD) : Vec F S10000x64 .f32 := VS.read (Elt F) (VS.writes (Elt F) VS.junk (firstRun m c).2.2.1)

/-- The two stores into an output's buffer at a point — its upper and its lower 200 rows — cover it. -/
theorem cover5F (c : Dev nD) (t : Fin cfg0.N) (h : atFirst (grid0.coords t)) (y : S400x64.Idx) : ∃ pc ∈ (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).1 S200x64.size (by sl_kernel_rfl) y
theorem cover6F (c : Dev nD) (t : Fin cfg0.N) (h : atFirst (grid0.coords t)) (y : S400x64.Idx) : ∃ pc ∈ (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).2.1 S200x64.size (by sl_kernel_rfl) y
theorem cover5L (c : Dev nD) (t : Fin cfg0.N) (h : ¬atFirst (grid0.coords t)) (y : S400x64.Idx) : ∃ pc ∈ (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).1, y ∈ pc.1.set :=
  View.cover_of_tiledL (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).1 S200x64.size (by sl_kernel_rfl) y
theorem cover6L (c : Dev nD) (t : Fin cfg0.N) (h : ¬atFirst (grid0.coords t)) (y : S400x64.Idx) : ∃ pc ∈ (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).2.1, y ∈ pc.1.set :=
  View.cover_of_tiledL (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).2.1 S200x64.size (by sl_kernel_rfl) y

/-- What the first output's buffer (the logarithmic softmax) holds after the body at point `t`. -/
def out5 (c : Dev nD) (t : Fin cfg0.N) : Vec F S400x64 .f32 :=
  if h : atFirst (grid0.coords t) then VO5.read (Elt F) (VO5.writes (Elt F) VO5.junk (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).1)
  else VO5.read (Elt F) (VO5.writes (Elt F) VO5.junk (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).1)
/-- What the second output's buffer (the layer's output before the softmax) holds after the body at point `t`. -/
def out6 (c : Dev nD) (t : Fin cfg0.N) : Vec F S400x64 .f32 :=
  if h : atFirst (grid0.coords t) then VO6.read (Elt F) (VO6.writes (Elt F) VO6.junk (runFirst c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t)).2.1)
  else VO6.read (Elt F) (VO6.writes (Elt F) VO6.junk (runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) h (iblk m c 0 t) (iblk m c 1 t) (iblk m c 2 t) (iblk m c 3 t) (iblk m c 4 t) (scr m c)).2.1)

/-! ## The invariant and the proof data -/

/-- Before position `n`: the scratch at anything before the first point, at the feature product afterwards. -/
def Phi (c : Dev nD) : ℕ → sProp 𝕄
  | 0 => iprop(∃ d, owns (c : Thread nD τ) scM fullShare d)
  | _ + 1 => owns (c : Thread nD τ) scM fullShare (scr m c)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := Phi m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; at the first point the scratch is at anything and the
    first run applies, leaving the feature product in it; at a later point the scratch holds the product and the later
    run applies, leaving it there. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, after0, after1, after2, after3, after4, after5, after6]
  rw [show (dats m 0 c).owesAt () t.succ = (dats m 0 c).owesAt () t.castSucc from rfl]
  rw [show (dats m 0 c).Φ t.succ = owns (c : Thread nD τ) scM fullShare (scr m c) from rfl]
  by_cases h0 : t.val = 0
  · have hc : atFirst (grid0.coords t) := (atFirst_iff t).mpr h0
    obtain rfl : t = t0 := Fin.ext h0
    rw [show (dats m 0 c).Φ (t0 : Fin cfg0.N).castSucc = iprop(∃ d, owns (c : Thread nD τ) scM fullShare d) from rfl]
    unfold out5 out6 scr
    rw [dif_pos hc, dif_pos hc]
    iintro ⟨HS, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM (Memref.isWhole_whole _) hc (iblk m c 0 t0) (iblk m c 1 t0) (iblk m c 2 t0) (iblk m c 3 t0) (iblk m c 4 t0)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%e8, H8⟩⟩
    isplitl [H8]
    · unfold owns; iexists _; isplitr
      swap; · iexact H8
      ipureintro; exact View.read_writes_of_cover _ _ _ _ _ (coverScr m c)
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5F m c t0 hc)
    · unfold owns; iexists _; isplitr
      swap; · iexact H6
      ipureintro; exact View.read_writes_of_cover _ _ _ _ _ (cover6F m c t0 hc)
  · have hc : ¬atFirst (grid0.coords t) := fun h => h0 ((atFirst_iff t).mp h)
    rw [show (dats m 0 c).Φ t.castSucc = owns (c : Thread nD τ) scM fullShare (scr m c) from by
      obtain ⟨n, hn⟩ := t
      cases n with
      | zero => exact absurd rfl h0
      | succ n => rfl]
    unfold out5 out6
    rw [dif_neg hc, dif_neg hc]
    iintro ⟨HS, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) (ms0 t) (hs0 t) (ms1 t) (hs1 t) (ms2 t) (hs2 t) (ms3 t) (hs3 t) (ms4 t) (hs4 t) (ms5 t) (hs5 t) (ms6 t) (hs6 t) scM (Memref.isWhole_whole _) hc (iblk m c 0 t) (iblk m c 1 t) (iblk m c 2 t) (iblk m c 3 t) (iblk m c 4 t) (scr m c)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, H8⟩
    isplitl [H8]; · iexact H8
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5L m c t hc)
    · unfold owns; iexists _; isplitr
      swap; · iexact H6
      ipureintro; exact View.read_writes_of_cover _ _ _ _ _ (cover6L m c t hc)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Frame.lean ====
/-
  The region's launch and the frame. The buffers behind the windows' arrays are six (the adjacency matrix is behind two
  windows); held whole at the region's entry, they make the pipeline's arrays once the matrix's full share is cut into the
  two halves its two windows hold. The invariant is entered from the scratch at anything and gives it back at the end. The
  run then says what every window's array holds at the end, and every other unscoped buffer is as at the entry: in
  particular the four argument arrays are unchanged.
-/
import proofs.«143370_g44306882625586_cont_8to1c4_829_12_alg».proof.Proof.KI.Obligation

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the seven windows' arrays. -/
theorem arrRefs_eq : Finset.univ.image (Pipeline.arrRef spec0)
    = ([main_arg0, main_arg2, main_v0, main_arg1, main_v1_0, main_v1_1] : List (Ref sig .tc)).toFinset := by decide

/-- The pipeline's arrays as points-tos of the buffers behind them, each at its window's share. -/
theorem arrays_eq (c : Dev nD) (G : (w : Fin cfg0.W) → Buf (Elt F) ((cfg0.win w).arr.view.loc (c.tc : Thread nD τ))) :
    (dats m 0 c).arrays G
      = bigSep Finset.univ fun w : Fin 7 => (((c.tc : Thread nD τ).loc (Pipeline.arrRef spec0 w)) ↦{(dats m 0 c).share w} G w : sProp 𝕄) := by
  unfold Dat.arrays
  exact bigSep_congr fun w _ => by rw [(arr_whole0 w).set_eq_univ]

/-- The six buffers held whole are the seven windows' arrays at their shares: the adjacency matrix's full share is its two
    windows' halves. -/
theorem hsplit (c : Dev nD) :
    (Pipeline.arrBufs spec0 c (V m c) : sProp 𝕄) ⊢ (dats m 0 c).arrays ((dats m 0 c).arrAt · 0) := by
  unfold Pipeline.arrBufs
  rw [arrays_eq, bigSep_W0, bigSep_eq_bigSepL_of_eq _ arrRefs_eq (by decide)]
  show iprop((((c.tc : Thread nD τ).loc main_arg0) ↦{fullShare} V m c main_arg0)
        ∗ (((c.tc : Thread nD τ).loc main_arg2) ↦{fullShare} V m c main_arg2)
        ∗ (((c.tc : Thread nD τ).loc main_v0) ↦{fullShare} V m c main_v0)
        ∗ (((c.tc : Thread nD τ).loc main_arg1) ↦{fullShare} V m c main_arg1)
        ∗ (((c.tc : Thread nD τ).loc main_v1_0) ↦{fullShare} V m c main_v1_0)
        ∗ (((c.tc : Thread nD τ).loc main_v1_1) ↦{fullShare} V m c main_v1_1))
    ⊢ (iprop((((c.tc : Thread nD τ).loc main_arg0) ↦{fullShare} V m c main_arg0)
        ∗ (((c.tc : Thread nD τ).loc main_arg2) ↦{fullShare} V m c main_arg2)
        ∗ (((c.tc : Thread nD τ).loc main_v0) ↦{fullShare} V m c main_v0)
        ∗ (((c.tc : Thread nD τ).loc main_arg1) ↦{fullShare.left} V m c main_arg1)
        ∗ (((c.tc : Thread nD τ).loc main_arg1) ↦{fullShare.right} V m c main_arg1)
        ∗ (((c.tc : Thread nD τ).loc main_v1_0) ↦{fullShare} V m c main_v1_0)
        ∗ (((c.tc : Thread nD τ).loc main_v1_1) ↦{fullShare} V m c main_v1_1)) : sProp 𝕄)
  iintro ⟨H0, H2, Hv, H1, H5, H6⟩
  ihave H1 := (pointsTo_share (PosShare.mem_left_op_right fullShare)).1 $$ H1
  icases H1 with ⟨Ha, Hb⟩
  isplitl [H0]; · iexact H0
  isplitl [H2]; · iexact H2
  isplitl [Hv]; · iexact Hv
  isplitl [Ha]; · iexact Ha
  isplitl [Hb]; · iexact Hb
  isplitl [H5]; · iexact H5
  iexact H6

theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_scratch]
  exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [scopedRest_scratch]
  show owns (c : Thread nD τ) scM fullShare (scr m c) ⊢ _
  iintro H; iexists _; iexact H

set_option backward.isDefEq.respectTransparency.types false in
/-- Every weakly fair execution of @main terminates; at the end every window's array holds what the proof data computes,
    and every other unscoped buffer what it held at the region's entry. -/
theorem run_main : θ_run defs (onTc (τ := τ) (main (F := F))) (s₀ m ρ) (Pipeline.FramePost cfgs (dats m) 0 (V m)) :=
  Pipeline.SharedArrays.θ_run_frame_shared cfgs (dats m) (0 : Fin 1) defs₀ Variants.none cellOf_inj winFacts₀0 block_pos0 arr_whole0 stage_whole0
    m ρ main (fun c => (body_obligation m c).loose) (fun _ _ => rfl) (V m) (hmain m Variants.none) (hsplit m) (hin m) (hout m)

/-- info: 'Cert.KernelIdeal.Hand.run_main' depends on axioms: [propext, Classical.choice, Quot.sound] -/
#guard_msgs in #print axioms run_main

/-- The frame: the program runs to the end, and the four argument arrays end as they began (the three the region stages are
    never written back; the bias is touched only by the reshape, which reads it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 0).trans (((dats m 0 c).arrAt_in 0 rfl _).trans ((A_eq m c 0).trans (V_arg0 m c))),
     ((h c).1 3).trans (((dats m 0 c).arrAt_in 3 rfl _).trans ((A_eq m c 3).trans (V_arg1 m c))),
     ((h c).1 1).trans (((dats m 0 c).arrAt_in 1 rfl _).trans ((A_eq m c 1).trans (V_arg2 m c))),
     ((h c).2 main_arg3 (Pipeline.mem_restRefs_of main_arg3 rfl (by decide))).trans (V_arg3 m c)⟩) (run_main m ρ)

end Cert.KernelIdeal.Hand

end
-- ==== Proof.KI.Left.lean ====
/-
  What the body leaves, as functions of the point's blocks. The scratch holds, from the first point on, the product of the
  feature block and the weight block (both windows are the whole arrays). An output's buffer holds two halves of 200 rows:
  the upper half computed from window 3's row-block of the adjacency matrix, the lower half from window 4's, each with the
  scratch and the bias row. At the first point the body reads the scratch back after storing it, so it reads that product.
-/
import proofs.«143370_g44306882625586_cont_8to1c4_829_12_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

/-- Reading the scratch back. -/
theorem scM_read_unread (X : Vec F S10000x64 .f32) :
    View.read (Elt F) (View.whole cc0_scratch0) ((Memref.isWhole_whole cc0_scratch0 : (scM : Memref sig .tc .vmem S10000x64 .f32).IsWhole).unread X) = X :=
  (Memref.isWhole_whole cc0_scratch0 : (scM : Memref sig .tc .vmem S10000x64 .f32).IsWhole).read_unread X

/-- From the first point on the scratch holds the product of the feature matrix and the weights. -/
theorem scr_eq (c : Dev nD) : scr m c = k0_pay2 (iblk m c 0 t0) (iblk m c 1 t0) := by
  unfold scr
  rw [View.read_writes_eq_canon _ _ _ (coverScr m c)]
  unfold firstRun runFirst
  dsimp only
  sl_unfold_words
  rw [View.canon_unit_zero (S := S10000x64) hz2]
  simp only [View.readAt_eq_ld, Memref.IsWhole.read_unread, View.ld_unit_zero (S := S200x10000) hz2, View.ld_unit_zero (S := S1x64) hz2, View.ld_unit_zero (S := S10000x128) hz2, View.ld_unit_zero (S := S128x64) hz2, View.ld_unit_zero (S := S10000x64) hz2]

/-- A 400-row buffer written as two halves of 200 rows, the lower half last. -/
def halves (top bot : Vec F S200x64 .f32) : Vec F S400x64 .f32 :=
  View.canon [(⟨Rect.unit (s := S400x64) ![200, 0] S200x64.size inb_S400x64_S200x64_200_0, bot⟩ : View.Piece (Elt F) S400x64 .f32),
    ⟨Rect.unit (s := S400x64) ![0, 0] S200x64.size inb_S400x64_S200x64_0_0, top⟩]

/-- The first output's buffer after the body at `t`: the row-wise logarithmic softmax of each half's rows. -/
theorem out5_eq (c : Dev nD) (t : Fin cfg0.N) :
    out5 m c t = halves (k0_pay4 (iblk m c 3 t) (scr m c) (iblk m c 2 t)) (k0_pay1 (k0_pay5 (iblk m c 4 t) (scr m c) (iblk m c 2 t))) := by
  by_cases h : atFirst (grid0.coords t)
  · obtain rfl : t = t0 := Fin.ext ((atFirst_iff t).mp h)
    unfold out5
    rw [dif_pos h, View.read_writes_eq_canon _ _ _ (cover5F m c t0 h), scr_eq]
    unfold runFirst halves
    dsimp only
    sl_unfold_words
    simp only [View.readCov_unit_zero (S := S10000x64) _ hz2, View.readAt_eq_ld, Memref.IsWhole.read_unread, View.ld_unit_zero (S := S200x10000) hz2, View.ld_unit_zero (S := S1x64) hz2, View.ld_unit_zero (S := S10000x128) hz2, View.ld_unit_zero (S := S128x64) hz2, View.ld_unit_zero (S := S10000x64) hz2]
  · unfold out5
    rw [dif_neg h, View.read_writes_eq_canon _ _ _ (cover5L m c t h)]
    unfold runLater halves
    dsimp only
    sl_unfold_words
    simp only [View.readAt_eq_ld, Memref.IsWhole.read_unread, View.ld_unit_zero (S := S200x10000) hz2, View.ld_unit_zero (S := S1x64) hz2, View.ld_unit_zero (S := S10000x128) hz2, View.ld_unit_zero (S := S128x64) hz2, View.ld_unit_zero (S := S10000x64) hz2, scM_read_unread]

/-- The second output's buffer after the body at `t`: each half's rows of the layer's output. -/
theorem out6_eq (c : Dev nD) (t : Fin cfg0.N) :
    out6 m c t = halves (k0_pay3 (iblk m c 3 t) (scr m c) (iblk m c 2 t)) (k0_pay5 (iblk m c 4 t) (scr m c) (iblk m c 2 t)) := by
  by_cases h : atFirst (grid0.coords t)
  · obtain rfl : t = t0 := Fin.ext ((atFirst_iff t).mp h)
    unfold out6
    rw [dif_pos h, View.read_writes_eq_canon _ _ _ (cover6F m c t0 h), scr_eq]
    unfold runFirst halves
    dsimp only
    sl_unfold_words
    simp only [View.readCov_unit_zero (S := S10000x64) _ hz2, View.readAt_eq_ld, Memref.IsWhole.read_unread, View.ld_unit_zero (S := S200x10000) hz2, View.ld_unit_zero (S := S1x64) hz2, View.ld_unit_zero (S := S10000x128) hz2, View.ld_unit_zero (S := S128x64) hz2, View.ld_unit_zero (S := S10000x64) hz2]
  · unfold out6
    rw [dif_neg h, View.read_writes_eq_canon _ _ _ (cover6L m c t h)]
    unfold runLater halves
    dsimp only
    sl_unfold_words
    simp only [View.readAt_eq_ld, Memref.IsWhole.read_unread, View.ld_unit_zero (S := S200x10000) hz2, View.ld_unit_zero (S := S1x64) hz2, View.ld_unit_zero (S := S10000x128) hz2, View.ld_unit_zero (S := S128x64) hz2, View.ld_unit_zero (S := S10000x64) hz2, scM_read_unread]

end Cert.KernelIdeal.Hand

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.KI.Values.lean ====
/-
  The body's arithmetic read at an index, at the ideal values. The feature product at (k, j) is the plain sum over the 128
  features; a row-block's output at (p, q) is the sum over the 10000 nodes of the block's entry times the scratch's, plus the
  bias at q; and the softmax of a block, at (p, q), is the block's entry less the logarithm of row p's sum of exponentials of
  the entries shifted by the row's maximum, with the shift added back — the maximum a fold of `max` from minus infinity.
-/
import proofs.«143370_g44306882625586_cont_8to1c4_829_12_alg».proof.Proof.Gen.KernelIdeal.Skeleton
import proofs.«143370_g44306882625586_cont_8to1c4_829_12_alg».proof.Proof.LibPlainProduct
import proofs.«143370_g44306882625586_cont_8to1c4_829_12_alg».proof.Proof.LibColumns
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-- The minus-infinity literal is the extended reals' bottom. -/
theorem ofBits_neg_inf : Ideal.ofBits .f32 0xFF800000#32 = (⊥ : EReal) := by simp [Ideal.ofBits, Ideal.ieee]

/-- The feature product at (k, j). -/
theorem pay2_apply (x0 : Vec Ideal S10000x128 .f32) (x1 : Vec Ideal S128x64 .f32) (k : Fin 10000) (j : Fin 64) :
    k0_pay2 (F := Ideal) x0 x1 (ix2 k j) = ∑ l : Fin 128, x0 (ix2 k l) * x1 (ix2 l j) := by
  unfold k0_pay2
  rw [shapeCast_self]
  exact PlainProduct.matmul_zero_apply Facts₀.dot_S10000x128_S128x64_S10000x64_1_0_0_1_n_n_wf none x0 x1 k j

/-- The upper row-block's output at (p, q). -/
theorem pay3_apply (x3 : Vec Ideal S200x10000 .f32) (s : Vec Ideal S10000x64 .f32) (x2 : Vec Ideal S1x64 .f32) (p : Fin 200) (q : Fin 64) :
    k0_pay3 (F := Ideal) x3 s x2 (ix2 p q) = (∑ k : Fin 10000, x3 (ix2 p k) * s (ix2 k q)) + x2 (ix2 (0 : Fin 1) q) := by
  unfold k0_pay3
  refine congrArg₂ (· + ·) (PlainProduct.matmul_zero_apply Facts₀.dot_S200x10000_S10000x64_S200x64_1_0_0_1_n_n_wf none x3 s p q) ?_
  rw [shapeCast_self]
  exact broadcastTo_1b_ab_apply x2 _ p q

/-- The lower row-block's output at (p, q). -/
theorem pay5_apply (x4 : Vec Ideal S200x10000 .f32) (s : Vec Ideal S10000x64 .f32) (x2 : Vec Ideal S1x64 .f32) (p : Fin 200) (q : Fin 64) :
    k0_pay5 (F := Ideal) x4 s x2 (ix2 p q) = (∑ k : Fin 10000, x4 (ix2 p k) * s (ix2 k q)) + x2 (ix2 (0 : Fin 1) q) := by
  unfold k0_pay5
  refine congrArg₂ (· + ·) (PlainProduct.matmul_zero_apply Facts₀.dot_S200x10000_S10000x64_S200x64_1_0_0_1_n_n_wf none x4 s p q) ?_
  rw [shapeCast_self]
  exact broadcastTo_1b_ab_apply x2 _ p q

/-- Row p with lane k inserted is (p, k). -/
theorem lift_row (p : Fin 200) (k : Fin 64) : Facts₀.reduces_S200x64_S200.lift (ix1 p) k = ix2 p k := by
  funext a; apply Fin.ext
  match a with
  | ⟨0, _⟩ => rfl
  | ⟨1, _⟩ => rfl

/-- A block's row maxima, taken from minus infinity, at row p. -/
theorem rowMax_apply (P : FVec Ideal S200x64 .f32) (p : Fin 200) :
    multiReduction .maximumf [1] S200 P 0xFF800000#32 Facts₀.reduces_S200x64_S200 (.inl rfl) rfl (ix1 p)
      = (Finset.univ : Finset (Fin 64)).fold max ⊥ (fun k => P (ix2 p k)) := by
  refine (Ideal.multiReduction_maximumf_single P 0xFF800000#32 Facts₀.reduces_S200x64_S200 (.inl rfl) rfl (ix1 p)).trans ?_
  have h1 : (FloatOps.ofBits (F := Ideal) .f32 0xFF800000#32 : EReal) = ⊥ := ofBits_neg_inf
  have h2 : (P ∘ Facts₀.reduces_S200x64_S200.lift (ix1 p)) = fun k => P (ix2 p k) := funext fun k => congrArg P (lift_row p k)
  rw [h1, h2]; rfl

/-- A block's row sums at row p. -/
theorem rowSum_apply (Q : FVec Ideal S200x64 .f32) (p : Fin 200) :
    multiReduction .add [1] S200 Q 0x00000000#32 Facts₀.reduces_S200x64_S200 (.inl rfl) rfl (ix1 p) = ∑ k : Fin 64, Q (ix2 p k) := by
  refine (Ideal.multiReduction_add_single Q 0x00000000#32 Facts₀.reduces_S200x64_S200 (.inl rfl) rfl (ix1 p)).trans ?_
  exact Finset.sum_congr rfl fun k _ => congrArg Q (lift_row p k)

/-- The row-wise logarithmic softmax of a block at (p, q). -/
theorem pay1_apply (P : FVec Ideal S200x64 .f32) (p : Fin 200) (q : Fin 64) :
    k0_pay1 (F := Ideal) P (ix2 p q)
      = P (ix2 p q) - (Ideal.log (∑ k : Fin 64, Ideal.exp (P (ix2 p k) - (Finset.univ : Finset (Fin 64)).fold max ⊥ (fun k => P (ix2 p k))))
          + (Finset.univ : Finset (Fin 64)).fold max ⊥ (fun k => P (ix2 p k))) := by
  unfold k0_pay1
  dsimp only
  rw [subf_apply, LibColumns.broadcastTo_a1_ab_apply, addf_apply]
  have hmx : shapeCast S200x1 (multiReduction .maximumf [1] S200 P 0xFF800000#32 Facts₀.reduces_S200x64_S200 (.inl rfl) rfl)
        Facts₀.shapeCasts_S200_S200x1 (ix2 p (0 : Fin 1))
      = (Finset.univ : Finset (Fin 64)).fold max ⊥ (fun k => P (ix2 p k)) :=
    (LibColumns.shapeCast_a_a1_apply _ _ p 0).trans (rowMax_apply P p)
  have hsum : shapeCast S200x1 (multiReduction .add [1] S200
          (exp (subf P (broadcastTo S200x64 (shapeCast S200x1 (multiReduction .maximumf [1] S200 P 0xFF800000#32 Facts₀.reduces_S200x64_S200 (.inl rfl) rfl)
            Facts₀.shapeCasts_S200_S200x1) Facts₀.broadcasts_S200x1_S200x64)))
          0x00000000#32 Facts₀.reduces_S200x64_S200 (.inl rfl) rfl) Facts₀.shapeCasts_S200_S200x1 (ix2 p (0 : Fin 1))
      = ∑ k : Fin 64, Ideal.exp (P (ix2 p k) - (Finset.univ : Finset (Fin 64)).fold max ⊥ (fun k => P (ix2 p k))) :=
    (LibColumns.shapeCast_a_a1_apply _ _ p 0).trans ((rowSum_apply _ p).trans (Finset.sum_congr rfl fun k _ => by
      show Ideal.exp (P (ix2 p k) - broadcastTo S200x64 (shapeCast S200x1 (multiReduction .maximumf [1] S200 P 0xFF800000#32 Facts₀.reduces_S200x64_S200 (.inl rfl) rfl)
            Facts₀.shapeCasts_S200_S200x1) Facts₀.broadcasts_S200x1_S200x64 (ix2 p k)) = _
      rw [LibColumns.broadcastTo_a1_ab_apply, hmx]))
  exact congrArg₂ (fun a b => P (ix2 p q) - (Ideal.log a + b)) hsum hmx

/-- The upper block's softmax is the softmax of the upper block's output. -/
theorem pay4_eq (x3 : Vec Ideal S200x10000 .f32) (s : Vec Ideal S10000x64 .f32) (x2 : Vec Ideal S1x64 .f32) :
    k0_pay4 (F := Ideal) x3 s x2 = k0_pay1 (k0_pay3 x3 s x2) := rfl

end Cert.KernelIdeal.Hand

end
-- ==== Proof.LibLogSoftmax.lean ====
/-
  The logarithmic softmax of a finite row of reals, read on the extended reals.

  For reals `o 0, …, o (n-1)` the logarithmic softmax at `j` is `o j − log Σₖ exp (o k)`. Programs compute it after shifting
  the row by some real `m` (its maximum, for range): either as `o j − (log Σₖ exp (o k − m) + m)` or as
  `(o j − m) − log Σₖ exp (o k − m)`. Since `Σₖ exp (o k − m) = exp (−m) · Σₖ exp (o k)` and the sum is positive, the shift
  cancels: both are the unshifted value, whatever real `m` is. On the extended reals, with every entry and the shift real, all
  the operations stay among the reals (the sum of exponentials is positive, so its logarithm is a real), and the two
  arrangements are the same real read as an extended real. Also here: a finite sum of reals read as extended reals is the
  real sum, and the maximum, taken from minus infinity, of finitely many (at least one) reals is a real.
-/
import Idealize.ShloMosaic.PureOps.Ideal
import Mathlib.Analysis.SpecialFunctions.Log.Basic
import Mathlib.Data.Finset.Fold

noncomputable section

namespace LogSoftmax

open Idealize.ShloMosaic

/-- A finite sum of reals, each read as an extended real, is the real sum read so. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The logarithmic softmax of a row of reals at `j`. -/
def lsm {n : ℕ} (o : Fin n → ℝ) (j : Fin n) : ℝ := o j - Real.log (∑ k, Real.exp (o k))

/-- Shifting the row by `m` inside the exponentials and adding `m` back outside the logarithm changes nothing. -/
theorem log_sum_exp_shift {n : ℕ} (hn : 0 < n) (o : Fin n → ℝ) (m : ℝ) :
    Real.log (∑ k, Real.exp (o k - m)) + m = Real.log (∑ k, Real.exp (o k)) := by
  have hpos : 0 < ∑ k, Real.exp (o k) := Finset.sum_pos (fun k _ => Real.exp_pos _) ⟨⟨0, hn⟩, Finset.mem_univ _⟩
  have h : ∑ k, Real.exp (o k - m) = Real.exp (-m) * ∑ k, Real.exp (o k) := by
    rw [Finset.mul_sum]
    exact Finset.sum_congr rfl fun k _ => by rw [← Real.exp_add]; congr 1; ring
  rw [h, Real.log_mul (Real.exp_pos _).ne' hpos.ne', Real.log_exp]; ring

theorem exp_shift_coe (a m : ℝ) : Ideal.exp (((a : ℝ) : EReal) - ((m : ℝ) : EReal)) = ((Real.exp (a - m) : ℝ) : EReal) := by
  rw [← EReal.coe_sub]; rfl

theorem log_pos_coe {r : ℝ} (h : 0 < r) : Ideal.log ((r : ℝ) : EReal) = ((Real.log r : ℝ) : EReal) := by
  rw [Ideal.log_coe, if_neg (not_le.mpr h)]

/-- The arrangement `o j − (log Σ exp (o k − m) + m)`, on the extended reals, is the softmax read as an extended real. -/
theorem shift_added_back {n : ℕ} (hn : 0 < n) (o : Fin n → ℝ) (m : ℝ) (j : Fin n) :
    ((o j : ℝ) : EReal) - (Ideal.log (∑ k, Ideal.exp (((o k : ℝ) : EReal) - ((m : ℝ) : EReal))) + ((m : ℝ) : EReal))
      = ((lsm o j : ℝ) : EReal) := by
  have hpos : 0 < ∑ k, Real.exp (o k - m) := Finset.sum_pos (fun k _ => Real.exp_pos _) ⟨⟨0, hn⟩, Finset.mem_univ _⟩
  simp only [exp_shift_coe]
  rw [coe_sum, log_pos_coe hpos, ← EReal.coe_add, ← EReal.coe_sub, log_sum_exp_shift hn]
  rfl

/-- The arrangement `(o j − m) − log (0 + Σ exp (o k − m))`, on the extended reals, is the same. -/
theorem shift_subtracted_first {n : ℕ} (hn : 0 < n) (o : Fin n → ℝ) (m : ℝ) (j : Fin n) :
    (((o j : ℝ) : EReal) - ((m : ℝ) : EReal)) - Ideal.log ((0 : EReal) + ∑ k, Ideal.exp (((o k : ℝ) : EReal) - ((m : ℝ) : EReal)))
      = ((lsm o j : ℝ) : EReal) := by
  have hpos : 0 < ∑ k, Real.exp (o k - m) := Finset.sum_pos (fun k _ => Real.exp_pos _) ⟨⟨0, hn⟩, Finset.mem_univ _⟩
  simp only [exp_shift_coe]
  rw [zero_add, coe_sum, log_pos_coe hpos, ← EReal.coe_sub, ← EReal.coe_sub]
  have := log_sum_exp_shift hn o m
  unfold lsm
  congr 1
  linarith

/-- The maximum, taken from minus infinity, of finitely many — at least one — reals is a real. -/
theorem fold_max_real {n : ℕ} (hn : 0 < n) (o : Fin n → ℝ) :
    ∃ m : ℝ, (Finset.univ : Finset (Fin n)).fold max (⊥ : EReal) (fun k => ((o k : ℝ) : EReal)) = ((m : ℝ) : EReal) := by
  have hlo : (⊥ : EReal) < (Finset.univ : Finset (Fin n)).fold max (⊥ : EReal) (fun k => ((o k : ℝ) : EReal)) :=
    (Finset.lt_fold_max _).mpr (Or.inr ⟨⟨0, hn⟩, Finset.mem_univ _, EReal.bot_lt_coe _⟩)
  have hhi : (Finset.univ : Finset (Fin n)).fold max (⊥ : EReal) (fun k => ((o k : ℝ) : EReal)) < ⊤ :=
    (Finset.fold_max_lt _).mpr ⟨bot_lt_top, fun k _ => EReal.coe_lt_top _⟩
  exact ⟨_, (EReal.coe_toReal hhi.ne hlo.ne').symm⟩

end LogSoftmax

end
-- ==== Proof.Spec.lean ====
/-
  What the two programs compute, as formulas of the argument arrays over the extended reals.

  For a feature matrix `X` (10000 × 128), an adjacency matrix `A` (10000 × 10000), weights `W` (128 × 64) and a bias `b` (64):
  the layer's output at (r, j) is `Σₖ A(r,k) · (Σₗ X(k,l) · W(l,j)) + b(j)`, and its row-wise logarithmic softmax is taken
  after shifting each row by its maximum. The kernel adds the shift back outside the logarithm; jax subtracts it first (and
  takes the row maximum once more against minus infinity). When every entry of the four arrays is a real number, every entry of
  the output is a real, each row's maximum is a real, and the two arrangements are the same number (LibLogSoftmax).
-/
import Idealize.ShloMosaic.Lib.ValueIdx
import Idealize.ShloMosaic.PureOps.Ideal
import proofs.«143370_g44306882625586_cont_8to1c4_829_12_alg».proof.Proof.LibLogSoftmax

noncomputable section

namespace GcnLayer

open Idealize.ShloMosaic Idealize.ShloMosaic.ValueIdx

abbrev SX : Shape := ⟨2, ![10000, 128]⟩
abbrev SA : Shape := ⟨2, ![10000, 10000]⟩
abbrev SW : Shape := ⟨2, ![128, 64]⟩
abbrev SB : Shape := ⟨1, ![64]⟩
abbrev SO : Shape := ⟨2, ![10000, 64]⟩

variable (X : SX.Idx → EReal) (A : SA.Idx → EReal) (W : SW.Idx → EReal) (b : SB.Idx → EReal)

/-- The feature product `X · W` at (k, j). -/
def supp (k : Fin 10000) (j : Fin 64) : EReal := ∑ l : Fin 128, X (ix2 k l) * W (ix2 l j)

/-- The layer's output `A · (X · W) + b` at (r, j). -/
def out (r : Fin 10000) (j : Fin 64) : EReal := (∑ k : Fin 10000, A (ix2 r k) * supp X W k j) + b (ix1 j)

/-- Row `r`'s maximum, taken from minus infinity. -/
def rowMax (r : Fin 10000) : EReal := (Finset.univ : Finset (Fin 64)).fold max ⊥ (fun j => out X A W b r j)

/-- The logarithmic softmax as the kernel arranges it: the shift added back outside the logarithm. -/
def logp (r : Fin 10000) (j : Fin 64) : EReal :=
  out X A W b r j - (Ideal.log (∑ j' : Fin 64, Ideal.exp (out X A W b r j' - rowMax X A W b r)) + rowMax X A W b r)

/-- The logarithmic softmax as jax arranges it: the shift subtracted first, the sum started from zero. -/
def logpRef (r : Fin 10000) (j : Fin 64) : EReal :=
  (out X A W b r j - max ⊥ (rowMax X A W b r))
    - Ideal.log ((0 : EReal) + ∑ j' : Fin 64, Ideal.exp (out X A W b r j' - max ⊥ (rowMax X A W b r)))

/-- The two results as whole arrays. -/
def outArr : SO.Idx → EReal := fun i => out X A W b ⟨(i 0).val, (i 0).isLt⟩ ⟨(i 1).val, (i 1).isLt⟩
def logpArr : SO.Idx → EReal := fun i => logp X A W b ⟨(i 0).val, (i 0).isLt⟩ ⟨(i 1).val, (i 1).isLt⟩

/-- Every entry is a real number. -/
def AllReal {S : Shape} (Y : S.Idx → EReal) : Prop := ∀ i, ∃ y : ℝ, Y i = ((y : ℝ) : EReal)

/-- On real inputs every entry of the output is a real. -/
theorem out_real (hX : AllReal X) (hA : AllReal A) (hW : AllReal W) (hb : AllReal b) :
    ∃ o : Fin 10000 → Fin 64 → ℝ, ∀ r j, out X A W b r j = ((o r j : ℝ) : EReal) := by
  choose x hx using hX
  choose a ha using hA
  choose w hw using hW
  choose β hβ using hb
  refine ⟨fun r j => (∑ k : Fin 10000, a (ix2 r k) * ∑ l : Fin 128, x (ix2 k l) * w (ix2 l j)) + β (ix1 j), fun r j => ?_⟩
  unfold out supp
  simp only [hx, ha, hw, hβ, ← EReal.coe_mul, LogSoftmax.coe_sum, ← EReal.coe_add]

/-- On real inputs jax's arrangement is the kernel's. -/
theorem logpRef_eq_logp (hX : AllReal X) (hA : AllReal A) (hW : AllReal W) (hb : AllReal b) (r : Fin 10000) (j : Fin 64) :
    logpRef X A W b r j = logp X A W b r j := by
  obtain ⟨o, ho⟩ := out_real X A W b hX hA hW hb
  obtain ⟨mx, hmx⟩ := LogSoftmax.fold_max_real (n := 64) (by norm_num) (o r)
  have hM : rowMax X A W b r = ((mx : ℝ) : EReal) := by
    unfold rowMax; simp only [ho]; exact hmx
  unfold logpRef logp
  rw [hM, max_eq_right (bot_le : (⊥ : EReal) ≤ _)]
  simp only [ho]
  rw [LogSoftmax.shift_subtracted_first (by norm_num) (o r) mx j, LogSoftmax.shift_added_back (by norm_num) (o r) mx j]

end GcnLayer

end
-- ==== Proof.KI.Final.lean ====
/-
  The kernel's two result arrays. Grid point t writes back rows 400·t … 400·t + 399 of each output: the upper 200 from the
  adjacency's row-block 2t (window 3), the lower 200 from row-block 2t + 1 (window 4). Row by row these are the specification's
  output and its logarithmic softmax at row 400·t + p: the scratch holds the feature product, the bias row is the bias, and a
  softmax only looks along its own row. The 25 points' blocks cover the 10000 rows, so the arrays end as the specification's.
-/
import proofs.«143370_g44306882625586_cont_8to1c4_829_12_alg».proof.Proof.KI.Left
import proofs.«143370_g44306882625586_cont_8to1c4_829_12_alg».proof.Proof.KI.Values
import proofs.«143370_g44306882625586_cont_8to1c4_829_12_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx GcnLayer

variable (m : (ℓ : Loc nD τ sig) → Buf (Elt Ideal) ℓ) (ρ : Dev nD → PrngReg)

/-! ## A buffer written as two halves, read at an index -/

theorem emb_upper (p : Fin 200) (q : Fin 64) (hp : p.val < 400) : (ix2 (⟨p.val, hp⟩ : Fin 400) q : S400x64.Idx)
      = (Rect.unit (s := S400x64) ![0, 0] S200x64.size inb_S400x64_S200x64_0_0).emb (ix2 p q) := by
  funext a; apply Fin.ext; rw [Rect.emb_apply]
  match a with
  | ⟨0, _⟩ => show p.val = 0 + 1 * p.val; omega
  | ⟨1, _⟩ => show q.val = 0 + 1 * q.val; omega

theorem emb_lower (p : Fin 200) (q : Fin 64) (hp : 200 + p.val < 400) : (ix2 (⟨200 + p.val, hp⟩ : Fin 400) q : S400x64.Idx)
      = (Rect.unit (s := S400x64) ![200, 0] S200x64.size inb_S400x64_S200x64_200_0).emb (ix2 p q) := by
  funext a; apply Fin.ext; rw [Rect.emb_apply]
  match a with
  | ⟨0, _⟩ => show 200 + p.val = 200 + 1 * p.val; omega
  | ⟨1, _⟩ => show q.val = 0 + 1 * q.val; omega

/-- An upper row is not under the lower half's store. -/
theorem notin_lower (p : Fin 200) (q : Fin 64) (hp : p.val < 400) : (ix2 (⟨p.val, hp⟩ : Fin 400) q : S400x64.Idx)
      ∉ (Rect.unit (s := S400x64) ![200, 0] S200x64.size inb_S400x64_S200x64_200_0).set := by
  intro H
  have H' := Rect.mem_set_unit.mp H
  have h0 : 200 ≤ p.val := (H' 0).1
  have := p.isLt
  omega

theorem past_lower (top bot : Vec Ideal S200x64 .f32) (y : S400x64.Idx)
    (hn : y ∉ (Rect.unit (s := S400x64) ![200, 0] S200x64.size inb_S400x64_S200x64_200_0).set) :
    halves top bot y = View.canon [(⟨Rect.unit (s := S400x64) ![0, 0] S200x64.size inb_S400x64_S200x64_0_0, top⟩ : View.Piece (Elt Ideal) S400x64 .f32)] y := by
  unfold halves
  exact View.canon_cons_of_not_mem _ _ hn

theorem halves_top (top bot : Vec Ideal S200x64 .f32) (p : Fin 200) (q : Fin 64) (hp : p.val < 400) :
    halves top bot (ix2 (⟨p.val, hp⟩ : Fin 400) q) = top (ix2 p q) :=
  (past_lower top bot _ (notin_lower p q hp)).trans
    ((congrArg (View.canon [(⟨Rect.unit (s := S400x64) ![0, 0] S200x64.size inb_S400x64_S200x64_0_0, top⟩ : View.Piece (Elt Ideal) S400x64 .f32)]) (emb_upper p q hp)).trans
      (View.canon_cons_emb _ _ _ _))

theorem halves_bot (top bot : Vec Ideal S200x64 .f32) (p : Fin 200) (q : Fin 64) (hp : 200 + p.val < 400) :
    halves top bot (ix2 (⟨200 + p.val, hp⟩ : Fin 400) q) = bot (ix2 p q) := by
  unfold halves
  exact (congrArg (View.canon [(⟨Rect.unit (s := S400x64) ![200, 0] S200x64.size inb_S400x64_S200x64_200_0, bot⟩ : View.Piece (Elt Ideal) S400x64 .f32),
    ⟨Rect.unit (s := S400x64) ![0, 0] S200x64.size inb_S400x64_S200x64_0_0, top⟩]) (emb_lower p q hp)).trans (View.canon_cons_emb _ _ _ _)

/-! ## The windows' block indices over the grid -/

theorem idx_facts : ∀ t : Fin cfg0.N, win0_3.index t (0 : Fin 2) = 2 * t.val ∧ win0_3.index t (1 : Fin 2) = 0
    ∧ win0_4.index t (0 : Fin 2) = 2 * t.val + 1 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem N25 (t : Fin cfg0.N) : t.val < 25 := lt_of_lt_of_eq t.isLt (show cfg0.N = 25 from N_0)

/-- The array row behind row p of point t's 400-row block. -/
def rowOf (t : Fin cfg0.N) (p : Fin 400) : Fin 10000 := ⟨400 * t.val + p.val, by have := N25 t; have := p.isLt; omega⟩

/-! ## The argument arrays as the region finds them, and the blocks read off them -/

abbrev Xc (c : Dev nD) : SX.Idx → EReal := m ((c.tc : Thread nD τ).loc main_arg0)
abbrev Ac (c : Dev nD) : SA.Idx → EReal := m ((c.tc : Thread nD τ).loc main_arg1)
abbrev Wc (c : Dev nD) : SW.Idx → EReal := m ((c.tc : Thread nD τ).loc main_arg2)
abbrev bc (c : Dev nD) : SB.Idx → EReal := m ((c.tc : Thread nD τ).loc main_arg3)

theorem iblk0_apply (c : Dev nD) (k : Fin 10000) (l : Fin 128) : iblk m c 0 t0 (ix2 k l) = Xc m c (ix2 k l) := by
  obtain ⟨e3, e3', e4, e4', e5, e5', e6, e6', e00, e01, e10, e11, e20, e21⟩ := idx_facts t0
  show V m c main_arg0 (((cfg0.win 0).blk t0).view.emb (ix2 k l)) = _
  rw [V_arg0]
  refine congrArg _ ?_
  funext a; apply Fin.ext
  match a with
  | ⟨0, _⟩ => show win0_0.index t0 (0 : Fin 2) * 10000 + 1 * k.val = k.val; omega
  | ⟨1, _⟩ => show win0_0.index t0 (1 : Fin 2) * 128 + 1 * l.val = l.val; omega

theorem iblk1_apply (c : Dev nD) (l : Fin 128) (j : Fin 64) : iblk m c 1 t0 (ix2 l j) = Wc m c (ix2 l j) := by
  obtain ⟨e3, e3', e4, e4', e5, e5', e6, e6', e00, e01, e10, e11, e20, e21⟩ := idx_facts t0
  show V m c main_arg2 (((cfg0.win 1).blk t0).view.emb (ix2 l j)) = _
  rw [V_arg2]
  refine congrArg _ ?_
  funext a; apply Fin.ext
  match a with
  | ⟨0, _⟩ => show win0_1.index t0 (0 : Fin 2) * 128 + 1 * l.val = l.val; omega
  | ⟨1, _⟩ => show win0_1.index t0 (1 : Fin 2) * 64 + 1 * j.val = j.val; omega

/-- The bias row the region finds is the bias. -/
theorem V_bias (c : Dev nD) : (V m c main_v0 : S1x64.Idx → EReal) = shapeCast S1x64 (m ((c.tc : Thread nD τ).loc main_arg3)) Facts₀.shapeCasts_S64_S1x64 := by
  dsimp only [V, hostOps0]; after_results <;> rfl

theorem iblk2_apply (c : Dev nD) (t : Fin cfg0.N) (q : Fin 64) : iblk m c 2 t (ix2 (0 : Fin 1) q) = bc m c (ix1 q) := by
  obtain ⟨e3, e3', e4, e4', e5, e5', e6, e6', e00, e01, e10, e11, e20, e21⟩ := idx_facts t
  show V m c main_v0 (((cfg0.win 2).blk t).view.emb (ix2 (0 : Fin 1) q)) = _
  have hi : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [hi, V_bias]
  exact shapeCast_a_1a_apply _ _ 0 q

theorem iblk3_apply (c : Dev nD) (t : Fin cfg0.N) (p : Fin 200) (k : Fin 10000) (hp : p.val < 400) :
    iblk m c 3 t (ix2 p k) = Ac m c (ix2 (rowOf t ⟨p.val, hp⟩) k) := by
  obtain ⟨e3, e3', e4, e4', e5, e5', e6, e6', e00, e01, e10, e11, e20, e21⟩ := idx_facts t
  show V m c main_arg1 (((cfg0.win 3).blk t).view.emb (ix2 p k)) = _
  rw [V_arg1]
  refine congrArg _ ?_
  funext a; apply Fin.ext
  match a with
  | ⟨0, _⟩ => show win0_3.index t (0 : Fin 2) * 200 + 1 * p.val = 400 * t.val + p.val; omega
  | ⟨1, _⟩ => show win0_3.index t (1 : Fin 2) * 10000 + 1 * k.val = k.val; omega

theorem iblk4_apply (c : Dev nD) (t : Fin cfg0.N) (p : Fin 200) (k : Fin 10000) (hp : 200 + p.val < 400) :
    iblk m c 4 t (ix2 p k) = Ac m c (ix2 (rowOf t ⟨200 + p.val, hp⟩) k) := by
  obtain ⟨e3, e3', e4, e4', e5, e5', e6, e6', e00, e01, e10, e11, e20, e21⟩ := idx_facts t
  show V m c main_arg1 (((cfg0.win 4).blk t).view.emb (ix2 p k)) = _
  rw [V_arg1]
  refine congrArg _ ?_
  funext a; apply Fin.ext
  match a with
  | ⟨0, _⟩ => show win0_4.index t (0 : Fin 2) * 200 + 1 * p.val = 400 * t.val + (200 + p.val); omega
  | ⟨1, _⟩ => show win0_4.index t (1 : Fin 2) * 10000 + 1 * k.val = k.val; omega

/-- The scratch holds the specification's feature product. -/
theorem scr_apply (c : Dev nD) (k : Fin 10000) (j : Fin 64) : scr m c (ix2 k j) = supp (Xc m c) (Wc m c) k j := by
  rw [scr_eq, pay2_apply]
  unfold supp
  exact Finset.sum_congr rfl fun l _ => by rw [iblk0_apply, iblk1_apply]

/-- A row-block's output, row p, is the specification's output at the block's array row. -/
theorem top_out (c : Dev nD) (t : Fin cfg0.N) (p : Fin 200) (q : Fin 64) (hp : p.val < 400) :
    k0_pay3 (F := Ideal) (iblk m c 3 t) (scr m c) (iblk m c 2 t) (ix2 p q) = out (Xc m c) (Ac m c) (Wc m c) (bc m c) (rowOf t ⟨p.val, hp⟩) q := by
  rw [pay3_apply, iblk2_apply]
  unfold out
  refine congrArg (· + _) (Finset.sum_congr rfl fun k _ => ?_)
  rw [iblk3_apply m c t p k hp, scr_apply]

theorem bot_out (c : Dev nD) (t : Fin cfg0.N) (p : Fin 200) (q : Fin 64) (hp : 200 + p.val < 400) :
    k0_pay5 (F := Ideal) (iblk m c 4 t) (scr m c) (iblk m c 2 t) (ix2 p q) = out (Xc m c) (Ac m c) (Wc m c) (bc m c) (rowOf t ⟨200 + p.val, hp⟩) q := by
  rw [pay5_apply, iblk2_apply]
  unfold out
  refine congrArg (· + _) (Finset.sum_congr rfl fun k _ => ?_)
  rw [iblk4_apply m c t p k hp, scr_apply]

/-- The softmax of a block whose row p is the specification's output row r is the specification's softmax at row r. -/
theorem softmax_row (P : FVec Ideal S200x64 .f32) (c : Dev nD) (r : Fin 10000) (p : Fin 200) (q : Fin 64)
    (hP : ∀ k : Fin 64, P (ix2 p k) = out (Xc m c) (Ac m c) (Wc m c) (bc m c) r k) :
    k0_pay1 (F := Ideal) P (ix2 p q) = logp (Xc m c) (Ac m c) (Wc m c) (bc m c) r q := by
  rw [pay1_apply]
  unfold logp rowMax
  simp only [hP]

/-! ## What each point writes back, and the cover -/

/-- Where row p, column q of point t's block sits in the array. -/
theorem emb5 (t : Fin cfg0.N) (p : Fin 400) (q : Fin 64) : ((cfg0.win 5).blk t).view.emb (ix2 p q) = ix2 (rowOf t p) q := by
  obtain ⟨e3, e3', e4, e4', e5, e5', e6, e6', e00, e01, e10, e11, e20, e21⟩ := idx_facts t
  funext a; apply Fin.ext
  match a with
  | ⟨0, _⟩ => show win0_5.index t (0 : Fin 2) * 400 + 1 * p.val = 400 * t.val + p.val; omega
  | ⟨1, _⟩ => show win0_5.index t (1 : Fin 2) * 64 + 1 * q.val = q.val; omega
theorem emb6 (t : Fin cfg0.N) (p : Fin 400) (q : Fin 64) : ((cfg0.win 6).blk t).view.emb (ix2 p q) = ix2 (rowOf t p) q := by
  obtain ⟨e3, e3', e4, e4', e5, e5', e6, e6', e00, e01, e10, e11, e20, e21⟩ := idx_facts t
  funext a; apply Fin.ext
  match a with
  | ⟨0, _⟩ => show win0_6.index t (0 : Fin 2) * 400 + 1 * p.val = 400 * t.val + p.val; omega
  | ⟨1, _⟩ => show win0_6.index t (1 : Fin 2) * 64 + 1 * q.val = q.val; omega

theorem split400 (p : Fin 400) : (∃ (p' : Fin 200) (hp : p'.val < 400), p = ⟨p'.val, hp⟩) ∨ (∃ (p' : Fin 200) (hp : 200 + p'.val < 400), p = ⟨200 + p'.val, hp⟩) := by
  by_cases h : p.val < 200
  · exact .inl ⟨⟨p.val, h⟩, p.isLt, rfl⟩
  · exact .inr ⟨⟨p.val - 200, by have := p.isLt; omega⟩, by show 200 + (p.val - 200) < 400; have := p.isLt; omega, Fin.ext (by show p.val = 200 + (p.val - 200); omega)⟩

/-- Point t writes back block t of the specification's output. -/
theorem flushed6_eq (c : Dev nD) (t : Fin cfg0.N) :
    (dats m 0 c).flushed 6 t = ((cfg0.win 6).blk t).view.read (Elt Ideal) (outArr (Xc m c) (Ac m c) (Wc m c) (bc m c)) := by
  show (cfg0.win 6).cut (grid0.coords t) ((dats m 0 c).after 6 t) = _
  rw [after6, out6_eq]
  funext j
  obtain ⟨p, q, rfl⟩ : ∃ (p : Fin 400) (q : Fin 64), j = ix2 p q := ⟨j 0, j 1, eq_ix2 j⟩
  show halves (F := Ideal) _ _ (ix2 p q) = outArr (Xc m c) (Ac m c) (Wc m c) (bc m c) (((cfg0.win 6).blk t).view.emb (ix2 p q))
  rw [emb6]
  show _ = out (Xc m c) (Ac m c) (Wc m c) (bc m c) (rowOf t p) q
  rcases split400 p with ⟨p', hp, rfl⟩ | ⟨p', hp, rfl⟩
  · rw [halves_top _ _ p' q hp, top_out m c t p' q hp]
  · rw [halves_bot _ _ p' q hp, bot_out m c t p' q hp]

/-- Point t writes back block t of the specification's logarithmic softmax. -/
theorem flushed5_eq (c : Dev nD) (t : Fin cfg0.N) :
    (dats m 0 c).flushed 5 t = ((cfg0.win 5).blk t).view.read (Elt Ideal) (logpArr (Xc m c) (Ac m c) (Wc m c) (bc m c)) := by
  show (cfg0.win 5).cut (grid0.coords t) ((dats m 0 c).after 5 t) = _
  rw [after5, out5_eq]
  funext j
  obtain ⟨p, q, rfl⟩ : ∃ (p : Fin 400) (q : Fin 64), j = ix2 p q := ⟨j 0, j 1, eq_ix2 j⟩
  show halves (F := Ideal) _ _ (ix2 p q) = logpArr (Xc m c) (Ac m c) (Wc m c) (bc m c) (((cfg0.win 5).blk t).view.emb (ix2 p q))
  rw [emb5]
  show _ = logp (Xc m c) (Ac m c) (Wc m c) (bc m c) (rowOf t p) q
  rcases split400 p with ⟨p', hp, rfl⟩ | ⟨p', hp, rfl⟩
  · rw [halves_top _ _ p' q hp, pay4_eq]
    exact softmax_row m _ c _ p' q fun k => top_out m c t p' k hp
  · rw [halves_bot _ _ p' q hp]
    exact softmax_row m _ c _ p' q fun k => bot_out m c t p' k hp

theorem mem_blk5 (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_v1_0).slice (win0_5.rect t)).set ↔ _
  rw [View.set_slice_whole, Rect.mem_set_unit]
  exact Iff.rfl
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v1_1).slice (win0_6.rect t)).set ↔ _
  rw [View.set_slice_whole, Rect.mem_set_unit]
  exact Iff.rfl

/-- Every row is in the block of the point its index divided by 400 names. -/
theorem cover5 (i : S10000x64.Idx) : ∃ t : Fin cfg0.N, (cfg0.win 5).flush t = true ∧ i ∈ ((cfg0.win 5).blk t).view.set := by
  have hi0 : (i 0).val < 10000 := (i 0).isLt
  have hi1 : (i 1).val < 64 := (i 1).isLt
  let t : Fin cfg0.N := ⟨(i 0).val / 400, by rw [show cfg0.N = 25 from N_0]; omega⟩
  obtain ⟨e3, e3', e4, e4', e5, e5', e6, e6', e00, e01, e10, e11, e20, e21⟩ := idx_facts t
  have ht : t.val = (i 0).val / 400 := rfl
  refine ⟨t, flush0_5 t, ?_⟩
  rw [mem_blk5]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 64 ≤ (i 1).val ∧ (i 1).val < win0_5.index t (1 : Fin 2) * 64 + 64; omega
theorem cover6 (i : S10000x64.Idx) : ∃ t : Fin cfg0.N, (cfg0.win 6).flush t = true ∧ i ∈ ((cfg0.win 6).blk t).view.set := by
  have hi0 : (i 0).val < 10000 := (i 0).isLt
  have hi1 : (i 1).val < 64 := (i 1).isLt
  let t : Fin cfg0.N := ⟨(i 0).val / 400, by rw [show cfg0.N = 25 from N_0]; omega⟩
  obtain ⟨e3, e3', e4, e4', e5, e5', e6, e6', e00, e01, e10, e11, e20, e21⟩ := idx_facts t
  have ht : t.val = (i 0).val / 400 := rfl
  refine ⟨t, flush0_6 t, ?_⟩
  rw [mem_blk6]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 64 ≤ (i 1).val ∧ (i 1).val < win0_6.index t (1 : Fin 2) * 64 + 64; omega

/-- The two result arrays after the run. -/
theorem final5 (c : Dev nD) : (dats m 0 c).arrAt 5 cfg0.N = logpArr (Xc m c) (Ac m c) (Wc m c) (bc m c) :=
  (dats m 0 c).arrAt_eq_of_cover 5 _ (fun t _ => flushed5_eq m c t) cover5
theorem final6 (c : Dev nD) : (dats m 0 c).arrAt 6 cfg0.N = outArr (Xc m c) (Ac m c) (Wc m c) (bc m c) :=
  (dats m 0 c).arrAt_eq_of_cover 6 _ (fun t _ => flushed6_eq m c t) cover6

/-- The kernel's run: both results at the specification's arrays of the launch contents, the arguments unchanged. -/
theorem run : θ_run defs (onTc (τ := τ) (main (F := Ideal))) ⟨m, fun _ => 0, ρ⟩ (fun r => ∀ c : Dev nD,
      r.2.mem ((c.tc : Thread nD τ).loc main_v1_0) = logpArr (Xc m c) (Ac m c) (Wc m c) (bc m c)
      ∧ r.2.mem ((c.tc : Thread nD τ).loc main_v1_1) = outArr (Xc m c) (Ac m c) (Wc m c) (bc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 5).trans (final5 m c), ((h c).1 6).trans (final6 m c),
     ((h c).1 0).trans (((dats m 0 c).arrAt_in 0 rfl _).trans ((A_eq m c 0).trans (V_arg0 m c))),
     ((h c).1 3).trans (((dats m 0 c).arrAt_in 3 rfl _).trans ((A_eq m c 3).trans (V_arg1 m c))),
     ((h c).1 1).trans (((dats m 0 c).arrAt_in 1 rfl _).trans ((A_eq m c 1).trans (V_arg2 m c))),
     ((h c).2 main_arg3 (Pipeline.mem_restRefs_of main_arg3 rfl (by decide))).trans (V_arg3 m c)⟩) (run_main m ρ)

end Cert.KernelIdeal.Hand

end
-- ==== Proof.RefRun.lean ====
/-
  The reference program's run. Its @main is twenty host operations in a straight line: five compute the layer's output
  `adj · (x · W) + b` (two products, the bias broadcast to every row, the sum), and fifteen are jax's row-wise logarithmic
  softmax of it — the row maximum, the shifted entries, the logarithm of the sum of their exponentials, the difference. Every
  weakly fair execution terminates with the two results at those functions of the argument arrays and the arguments unchanged.
-/
import proofs.«143370_g44306882625586_cont_8to1c4_829_12_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The two results as functions of the arguments -/

/-- The layer's output: `adj · (x · W)` plus the bias on every row. -/
def outTerm (x : FVec F S10000x128 .f32) (adj : FVec F S10000x10000 .f32) (W : FVec F S128x64 .f32) (b : FVec F S64 .f32) : FVec F S10000x64 .f32 :=
  addf (Host.dotGeneral dot_S10000x10000_S10000x64_S10000x64_1_0_0_1_n_n none adj (Host.dotGeneral dot_S10000x128_S128x64_S10000x64_1_0_0_1_n_n none x W))
    (broadcastInDim S10000x64 ![0, 1] bcast_S1x64_S10000x64_0_1 (broadcastInDim S1x64 ![1] bcast_S64_S1x64_1 b))

/-- Each row's maximum (taken from minus infinity, and once more against minus infinity). -/
def rowMax (o : FVec F S10000x64 .f32) : FVec F S10000 .f32 :=
  maximumf (broadcastInDim S10000 ![] bcast_S_S10000 (constant S_ .f32 0xFF800000#32))
    (Host.reduce FloatOps.maximumf o (constant S_ .f32 0xFF800000#32) reducesTo_S10000x64_S10000_d1 h_S_)

/-- The entries less their row's maximum. -/
def shifted (o : FVec F S10000x64 .f32) : FVec F S10000x64 .f32 :=
  subf o (broadcastInDim S10000x64 ![0, 1] bcast_S10000x1_S10000x64_0_1 (broadcastInDim S10000x1 ![0] bcast_S10000_S10000x1_0 (rowMax o)))

/-- The row-wise logarithmic softmax as jax computes it: the shifted entries less the logarithm of the row's sum of their
    exponentials. -/
def softmaxTerm (o : FVec F S10000x64 .f32) : FVec F S10000x64 .f32 :=
  subf (shifted o) (broadcastInDim S10000x64 ![0, 1] bcast_S10000x1_S10000x64_0_1 (Host.log (broadcastInDim S10000x1 ![0] bcast_S10000_S10000x1_0
    (Host.reduceAdd (Host.exp (shifted o)) (constant S_ .f32 0x00000000#32) reducesTo_S10000x64_S10000_d1 h_S_))))

/-! ## @main as its operations -/

/-- The five operations of the layer's output. -/
abbrev opsOut : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)) ]

/-- The fifteen operations of the softmax, over the call's buffers. -/
abbrev opsSoftmax : List (HloOp τ sig (Elt F)) :=
  [ TRef.nullary (TRef.of (T := ⟨S_, .f32⟩) main_call0_cst) (constant S_ .f32 0xFF800000#32),
    TRef.binary (TRef.of (T := ⟨S10000x64, .f32⟩) main_v4) (TRef.of (T := ⟨S_, .f32⟩) main_call0_cst) (TRef.of (T := ⟨S10000, .f32⟩) main_call0_v0) (fun x v => Host.reduce FloatOps.maximumf x v reducesTo_S10000x64_S10000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S10000, .f32⟩) main_call0_v1) (broadcastInDim S10000 ![] bcast_S_S10000),
    TRef.binary (TRef.of (T := ⟨S10000, .f32⟩) main_call0_v1) (TRef.of (T := ⟨S10000, .f32⟩) main_call0_v0) (TRef.of (T := ⟨S10000, .f32⟩) main_call0_v2) maximumf,
    TRef.unary (TRef.of (T := ⟨S10000, .f32⟩) main_call0_v2) (TRef.of (T := ⟨S10000x1, .f32⟩) main_call0_v3) (broadcastInDim S10000x1 ![0] bcast_S10000_S10000x1_0),
    TRef.unary (TRef.of (T := ⟨S10000x1, .f32⟩) main_call0_v3) (TRef.of (T := ⟨S10000x64, .f32⟩) main_call0_v4) (broadcastInDim S10000x64 ![0, 1] bcast_S10000x1_S10000x64_0_1),
    TRef.binary (TRef.of (T := ⟨S10000x64, .f32⟩) main_v4) (TRef.of (T := ⟨S10000x64, .f32⟩) main_call0_v4) (TRef.of (T := ⟨S10000x64, .f32⟩) main_call0_v5) subf,
    TRef.unary (TRef.of (T := ⟨S10000x64, .f32⟩) main_call0_v5) (TRef.of (T := ⟨S10000x64, .f32⟩) main_call0_v6) Host.exp,
    TRef.nullary (TRef.of (T := ⟨S_, .f32⟩) main_call0_cst_1) (constant S_ .f32 0x00000000#32),
    TRef.binary (TRef.of (T := ⟨S10000x64, .f32⟩) main_call0_v6) (TRef.of (T := ⟨S_, .f32⟩) main_call0_cst_1) (TRef.of (T := ⟨S10000, .f32⟩) main_call0_v7) (fun x v => Host.reduceAdd x v reducesTo_S10000x64_S10000_d1 h_S_),
    TRef.unary (TRef.of (T := ⟨S10000, .f32⟩) main_call0_v7) (TRef.of (T := ⟨S10000x1, .f32⟩) main_call0_v8) (broadcastInDim S10000x1 ![0] bcast_S10000_S10000x1_0),
    TRef.unary (TRef.of (T := ⟨S10000x1, .f32⟩) main_call0_v8) (TRef.of (T := ⟨S10000x1, .f32⟩) main_call0_v9) Host.log,
    TRef.unary (TRef.of (T := ⟨S10000x1, .f32⟩) main_call0_v9) (TRef.of (T := ⟨S10000x64, .f32⟩) main_call0_v10) (broadcastInDim S10000x64 ![0, 1] bcast_S10000x1_S10000x64_0_1),
    TRef.binary (TRef.of (T := ⟨S10000x64, .f32⟩) main_call0_v5) (TRef.of (T := ⟨S10000x64, .f32⟩) main_call0_v10) (TRef.of (T := ⟨S10000x64, .f32⟩) main_v5) subf ]

/-- All twenty, in @main's order. -/
abbrev ops : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
   TRef.nullary (TRef.of (T := ⟨S_, .f32⟩) main_call0_cst) (constant S_ .f32 0xFF800000#32),
    TRef.binary (TRef.of (T := ⟨S10000x64, .f32⟩) main_v4) (TRef.of (T := ⟨S_, .f32⟩) main_call0_cst) (TRef.of (T := ⟨S10000, .f32⟩) main_call0_v0) (fun x v => Host.reduce FloatOps.maximumf x v reducesTo_S10000x64_S10000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S10000, .f32⟩) main_call0_v1) (broadcastInDim S10000 ![] bcast_S_S10000),
    TRef.binary (TRef.of (T := ⟨S10000, .f32⟩) main_call0_v1) (TRef.of (T := ⟨S10000, .f32⟩) main_call0_v0) (TRef.of (T := ⟨S10000, .f32⟩) main_call0_v2) maximumf,
    TRef.unary (TRef.of (T := ⟨S10000, .f32⟩) main_call0_v2) (TRef.of (T := ⟨S10000x1, .f32⟩) main_call0_v3) (broadcastInDim S10000x1 ![0] bcast_S10000_S10000x1_0),
    TRef.unary (TRef.of (T := ⟨S10000x1, .f32⟩) main_call0_v3) (TRef.of (T := ⟨S10000x64, .f32⟩) main_call0_v4) (broadcastInDim S10000x64 ![0, 1] bcast_S10000x1_S10000x64_0_1),
    TRef.binary (TRef.of (T := ⟨S10000x64, .f32⟩) main_v4) (TRef.of (T := ⟨S10000x64, .f32⟩) main_call0_v4) (TRef.of (T := ⟨S10000x64, .f32⟩) main_call0_v5) subf,
    TRef.unary (TRef.of (T := ⟨S10000x64, .f32⟩) main_call0_v5) (TRef.of (T := ⟨S10000x64, .f32⟩) main_call0_v6) Host.exp,
    TRef.nullary (TRef.of (T := ⟨S_, .f32⟩) main_call0_cst_1) (constant S_ .f32 0x00000000#32),
    TRef.binary (TRef.of (T := ⟨S10000x64, .f32⟩) main_call0_v6) (TRef.of (T := ⟨S_, .f32⟩) main_call0_cst_1) (TRef.of (T := ⟨S10000, .f32⟩) main_call0_v7) (fun x v => Host.reduceAdd x v reducesTo_S10000x64_S10000_d1 h_S_),
    TRef.unary (TRef.of (T := ⟨S10000, .f32⟩) main_call0_v7) (TRef.of (T := ⟨S10000x1, .f32⟩) main_call0_v8) (broadcastInDim S10000x1 ![0] bcast_S10000_S10000x1_0),
    TRef.unary (TRef.of (T := ⟨S10000x1, .f32⟩) main_call0_v8) (TRef.of (T := ⟨S10000x1, .f32⟩) main_call0_v9) Host.log,
    TRef.unary (TRef.of (T := ⟨S10000x1, .f32⟩) main_call0_v9) (TRef.of (T := ⟨S10000x64, .f32⟩) main_call0_v10) (broadcastInDim S10000x64 ![0, 1] bcast_S10000x1_S10000x64_0_1),
    TRef.binary (TRef.of (T := ⟨S10000x64, .f32⟩) main_call0_v5) (TRef.of (T := ⟨S10000x64, .f32⟩) main_call0_v10) (TRef.of (T := ⟨S10000x64, .f32⟩) main_v5) subf ]

theorem ops_split : (ops : List (HloOp τ sig (Elt F))) = opsOut ++ opsSoftmax := rfl

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## What the buffers hold after the operations -/

/-- After the first five operations the output buffer holds the layer's output. -/
theorem out_after (W : Valuation τ sig (Elt F)) :
    after opsOut W (Proc.devRef .tc main_v4) = outTerm (W main_arg0) (W main_arg1) (W main_arg2) (W main_arg3) := by
  unfold outTerm; after_results <;> rfl

/-- The softmax's operations leave the output buffer alone, -/
theorem softmax_keeps_out (W : Valuation τ sig (Elt F)) : after opsSoftmax W (Proc.devRef .tc main_v4) = W main_v4 := by
  after_results <;> rfl

set_option maxRecDepth 1000000 in
set_option maxHeartbeats 16000000 in
/-- and put the softmax of what it holds in the result buffer. -/
theorem softmax_after (W : Valuation τ sig (Elt F)) : after opsSoftmax W (Proc.devRef .tc main_v5) = softmaxTerm (W main_v4) := by
  unfold softmaxTerm shifted rowMax; after_results <;> rfl

theorem arg0_after (W : Valuation τ sig (Elt F)) : after ops W (Proc.devRef .tc main_arg0) = W main_arg0 := by
  after_results <;> rfl
theorem arg1_after (W : Valuation τ sig (Elt F)) : after ops W (Proc.devRef .tc main_arg1) = W main_arg1 := by
  after_results <;> rfl
theorem arg2_after (W : Valuation τ sig (Elt F)) : after ops W (Proc.devRef .tc main_arg2) = W main_arg2 := by
  after_results <;> rfl
theorem arg3_after (W : Valuation τ sig (Elt F)) : after ops W (Proc.devRef .tc main_arg3) = W main_arg3 := by
  after_results <;> rfl

/-- On every device, for any float values, from any memory with zero counters: every weakly fair execution of @main
    terminates with the softmax result and the layer's output at these functions of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = softmaxTerm (outTerm (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v4) = outTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v5).trans (by rw [ops_split, StableHlo.after_append, softmax_after, out_after]),
     (h c main_v4).trans (by rw [ops_split, StableHlo.after_append, softmax_keeps_out, out_after]),
     (h c main_arg0).trans (by rw [arg0_after]),
     (h c main_arg1).trans (by rw [arg1_after]),
     (h c main_arg2).trans (by rw [arg2_after]),
     (h c main_arg3).trans (by rw [arg3_after])⟩)
    (run_seq scopedRefs_eq scopedSems_eq defs main (fun _ => ops) main_eq (fun _ => ops_sub) m ρ)

end Cert.ReferenceIdeal.Hand

end
-- ==== Proof.RefRead.lean ====
/-
  The reference's two results, index by index, are the specification's formulas. The two `dot_general`s are plain sums, the
  bias is read at the column, the row maximum is a fold of `max` from minus infinity (taken once more against minus
  infinity), the sum of exponentials starts from the literal zero, and the broadcasts only move indices.
-/
import proofs.«143370_g44306882625586_cont_8to1c4_829_12_alg».proof.Proof.RefRun
import proofs.«143370_g44306882625586_cont_8to1c4_829_12_alg».proof.Proof.Spec
import proofs.«143370_g44306882625586_cont_8to1c4_829_12_alg».proof.Proof.LibPlainProduct
import Idealize.ShloMosaic.Lib.IdealHost
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen Idealize.ShloMosaic Idealize.ShloMosaic.ValueIdx GcnLayer

theorem ofBits_neg_inf : Ideal.ofBits .f32 0xFF800000#32 = (⊥ : EReal) := by simp [Ideal.ofBits, Ideal.ieee]

/-- The bias, broadcast to a row and then to every row, read at (r, j). -/
theorem bias_apply (b : FVec Ideal S64 .f32) (r : Fin 10000) (j : Fin 64) :
    broadcastInDim S10000x64 ![0, 1] Facts₀.bcast_S1x64_S10000x64_0_1 (broadcastInDim S1x64 ![1] Facts₀.bcast_S64_S1x64_1 b) (ix2 r j) = b (ix1 j) := by
  refine (broadcastInDim_apply _ _ _ (ix2 r j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

/-- A column broadcast over the 64 lanes, read at (r, j). -/
theorem lanes_apply (v : FVec Ideal S10000x1 .f32) (r : Fin 10000) (j : Fin 64) :
    broadcastInDim S10000x64 ![0, 1] Facts₀.bcast_S10000x1_S10000x64_0_1 v (ix2 r j) = v (ix2 r (0 : Fin 1)) := by
  refine broadcastInDim_apply _ _ _ (ix2 r j) (ix2 r (0 : Fin 1)) fun a => ?_
  match a with
  | ⟨0, _⟩ => rfl
  | ⟨1, _⟩ => rfl

/-- A per-row vector as a column, read at (r, u). -/
theorem column_apply (v : FVec Ideal S10000 .f32) (r : Fin 10000) (u : Fin 1) :
    broadcastInDim S10000x1 ![0] Facts₀.bcast_S10000_S10000x1_0 v (ix2 r u) = v (ix1 r) := by
  refine broadcastInDim_apply _ _ _ (ix2 r u) (ix1 r) fun a => ?_
  match a with
  | ⟨0, _⟩ => rfl

/-- The layer's output term is the specification's output. -/
theorem outTerm_eq (X : FVec Ideal S10000x128 .f32) (A : FVec Ideal S10000x10000 .f32) (W : FVec Ideal S128x64 .f32) (b : FVec Ideal S64 .f32) :
    outTerm (F := Ideal) X A W b = outArr X A W b := by
  funext i
  obtain ⟨r, j, rfl⟩ : ∃ (r : Fin 10000) (j : Fin 64), i = ix2 r j := ⟨i 0, i 1, eq_ix2 i⟩
  unfold outTerm
  show _ = out X A W b r j
  unfold out supp
  refine congrArg₂ (· + ·) ?_ (bias_apply b r j)
  refine (PlainProduct.dotGeneral_apply Facts₀.dot_S10000x10000_S10000x64_S10000x64_1_0_0_1_n_n_wf none A _ r j).trans
    (Finset.sum_congr rfl fun k _ => ?_)
  exact congrArg (A (ix2 r k) * ·) (PlainProduct.dotGeneral_apply Facts₀.dot_S10000x128_S128x64_S10000x64_1_0_0_1_n_n_wf none X W k j)

theorem reduces_rows : S10000x64.Reduces [1] S10000 := by decide

theorem lift_row (r : Fin 10000) (k : Fin 64) : reduces_rows.lift (ix1 r) k = ix2 r k := by
  funext a; apply Fin.ext
  match a with
  | ⟨0, _⟩ => rfl
  | ⟨1, _⟩ => rfl

/-- The reference's row maximum at row r. -/
theorem rowMax_apply (o : FVec Ideal S10000x64 .f32) (r : Fin 10000) :
    rowMax (F := Ideal) o (ix1 r) = max ⊥ ((Finset.univ : Finset (Fin 64)).fold max ⊥ (fun k => o (ix2 r k))) := by
  unfold rowMax
  rw [maximumf_apply, broadcastInDim_scalar_apply, constant_apply, ofBits_neg_inf,
    Host.reduce_eq_fold_single FloatOps.maximumf o _ Facts₀.reducesTo_S10000x64_S10000_d1 reduces_rows Facts₀.h_S_ (ix1 r)]
  have h2 : (o ∘ reduces_rows.lift (ix1 r)) = fun k => o (ix2 r k) := funext fun k => congrArg o (lift_row r k)
  rw [h2, constant_apply, ofBits_neg_inf]
  rfl

/-- The shifted entries at (r, j). -/
theorem shifted_apply (o : FVec Ideal S10000x64 .f32) (r : Fin 10000) (j : Fin 64) :
    shifted (F := Ideal) o (ix2 r j) = o (ix2 r j) - max ⊥ ((Finset.univ : Finset (Fin 64)).fold max ⊥ (fun k => o (ix2 r k))) := by
  unfold shifted
  rw [subf_apply, lanes_apply, column_apply, rowMax_apply]

/-- The reference's softmax term at (r, j). -/
theorem softmaxTerm_apply (o : FVec Ideal S10000x64 .f32) (r : Fin 10000) (j : Fin 64) :
    softmaxTerm (F := Ideal) o (ix2 r j)
      = (o (ix2 r j) - max ⊥ ((Finset.univ : Finset (Fin 64)).fold max ⊥ (fun k => o (ix2 r k))))
        - Ideal.log ((0 : EReal) + ∑ k : Fin 64, Ideal.exp (o (ix2 r k) - max ⊥ ((Finset.univ : Finset (Fin 64)).fold max ⊥ (fun k => o (ix2 r k))))) := by
  unfold softmaxTerm
  rw [subf_apply, lanes_apply, shifted_apply]
  have hsum : broadcastInDim S10000x1 ![0] Facts₀.bcast_S10000_S10000x1_0
        (Host.reduceAdd (Host.exp (shifted (F := Ideal) o)) (constant (F := Ideal) S_ .f32 0x00000000#32) Facts₀.reducesTo_S10000x64_S10000_d1 Facts₀.h_S_)
        (ix2 r (0 : Fin 1))
      = (0 : EReal) + ∑ k : Fin 64, Ideal.exp (o (ix2 r k) - max ⊥ ((Finset.univ : Finset (Fin 64)).fold max ⊥ (fun k => o (ix2 r k)))) := by
    rw [column_apply, hostReduceAdd_apply, Ideal.hostReduceAdd_single Facts₀.reducesTo_S10000x64_S10000_d1 reduces_rows, constant_apply, Ideal.ofBits_zero_f32]
    refine congrArg ((0 : EReal) + ·) (Finset.sum_congr rfl fun (k : Fin 64) _ => ?_)
    exact (congrArg (fun i => Ideal.exp (shifted (F := Ideal) o i)) (lift_row r k)).trans (congrArg Ideal.exp (shifted_apply o r k))
  exact congrArg (fun z => (o (ix2 r j) - max ⊥ ((Finset.univ : Finset (Fin 64)).fold max ⊥ (fun k => o (ix2 r k)))) - Ideal.log z) hsum

/-- The reference's softmax of the specification's output is the specification's softmax in jax's arrangement. -/
theorem softmaxTerm_eq (X : FVec Ideal S10000x128 .f32) (A : FVec Ideal S10000x10000 .f32) (W : FVec Ideal S128x64 .f32) (b : FVec Ideal S64 .f32) :
    softmaxTerm (F := Ideal) (outArr X A W b) = fun i => logpRef X A W b ⟨(i 0).val, (i 0).isLt⟩ ⟨(i 1).val, (i 1).isLt⟩ := by
  funext i
  obtain ⟨r, j, rfl⟩ : ∃ (r : Fin 10000) (j : Fin 64), i = ix2 r j := ⟨i 0, i 1, eq_ix2 i⟩
  rw [softmaxTerm_apply]
  rfl

end Cert.ReferenceIdeal.Hand

end
-- ==== Proof.Finite.lean ====
/-
  The precondition says every float input is finite: for each of the four arrays, every entry's absolute value compares below
  plus infinity, and the four verdicts are conjoined. On the extended reals an entry whose absolute value is below plus
  infinity is neither infinity, so it is a real number.
-/
import proofs.«143370_g44306882625586_cont_8to1c4_829_12_alg».proof.Proof.Gen.Pre_finite_inputs
import proofs.«143370_g44306882625586_cont_8to1c4_829_12_alg».proof.Proof.Spec
import Idealize.ShloMosaic.Lib.ReduceAll
import Idealize.ShloMosaic.Lib.Affine
import Idealize.ShloMosaic.Lib.IdealHost
import Idealize.ShloMosaic.PureOps.Ideal.Laws

set_option maxRecDepth 16384

noncomputable section

namespace Cert.Pre_finite_inputs.Hand

open Cert.Pre_finite_inputs Cert.Pre_finite_inputs.Gen Idealize.ShloMosaic Idealize.ShloMosaic.ValueIdx GcnLayer

instance : Subsingleton S_.Idx := ⟨fun a b => funext fun d => d.elim0⟩

theorem ofBits_inf : Ideal.ofBits .f32 0x7F800000#32 = (⊤ : EReal) := by simp [Ideal.ofBits, Ideal.ieee]

/-- An extended real whose absolute value is below plus infinity is a real. -/
theorem real_of_abs_lt_top (x : EReal) (h : max x (-x) < ⊤) : ∃ y : ℝ, x = ((y : ℝ) : EReal) := by
  induction x using EReal.rec with
  | bot => simp at h
  | coe y => exact ⟨y, rfl⟩
  | top => simp at h

/-- An array all of whose entries pass the printed comparison against plus infinity has only real entries. -/
theorem allReal_of_cmp {S : Shape} (Y : FVec Ideal S .f32) (hb : S_.BroadcastsInDim S (![] : Fin 0 → Fin S.rank))
    (h : ∀ i, cmpf .olt (Host.absf Y) (broadcastInDim S ![] hb (constant (F := Ideal) S_ .f32 0x7F800000#32)) i = 1#1) : AllReal Y := by
  intro i
  have hi := h i
  have e : broadcastInDim S ![] hb (constant (F := Ideal) S_ .f32 0x7F800000#32) i = (⊤ : EReal) := by
    rw [broadcastInDim_scalar_apply, constant_apply, ofBits_inf]
  have hi' : Ideal.cmp .olt (max (Y i) (-(Y i))) (broadcastInDim S ![] hb (constant (F := Ideal) S_ .f32 0x7F800000#32) i) = 1#1 := hi
  rw [e] at hi'
  have hi'' : BitVec.ofBool (decide (max (Y i) (-(Y i)) < (⊤ : EReal))) = 1#1 := hi'
  refine real_of_abs_lt_top (Y i) ?_
  cases hd : decide (max (Y i) (-(Y i)) < (⊤ : EReal)) with
  | true => exact of_decide_eq_true hd
  | false => rw [hd] at hi''; exact absurd hi'' (by decide)

/-- The precondition makes every entry of the four arrays a real. -/
theorem allReal_of_pre (X : FVec Ideal S10000x128 .f32) (A : FVec Ideal S10000x10000 .f32) (W : FVec Ideal S128x64 .f32) (b : FVec Ideal S64 .f32)
    (h : fn (F := Ideal) X A W b = fun _ => 1#1) : AllReal X ∧ AllReal A ∧ AllReal W ∧ AllReal b := by
  have h0 := congrFun h ix0
  dsimp only [fn, fn_part1] at h0
  obtain ⟨h012, h3⟩ := IntOp.andi_eq_one.mp h0
  obtain ⟨h01, h2⟩ := IntOp.andi_eq_one.mp h012
  obtain ⟨hX, hA⟩ := IntOp.andi_eq_one.mp h01
  exact ⟨allReal_of_cmp X _ (Host.reduce_andi_all _ _ _ _ ix0 hX),
    allReal_of_cmp A _ (Host.reduce_andi_all _ _ _ _ ix0 hA),
    allReal_of_cmp W _ (Host.reduce_andi_all _ _ _ _ ix0 h2),
    allReal_of_cmp b _ (Host.reduce_andi_all _ _ _ _ ix0 h3)⟩

end Cert.Pre_finite_inputs.Hand

end
-- ==== Proof.lean ====
/-
  One graph-convolution layer, `out = adj · (x · W) + b`, returned together with its row-wise logarithmic softmax, as a
  single pipelined kernel against plain jax.

  The kernel walks the 10000 rows of the adjacency matrix in 25 steps of 400 rows, reading two row-blocks of 200 rows per
  step through two windows on the same array; it computes the feature product `x · W` once, at the first step, into a scratch
  buffer that every later step reads. Each step multiplies its two row-blocks by the scratch, adds the bias, writes the 400
  rows of `out`, and writes their logarithmic softmax computed as `out − (log Σ exp (out − m) + m)` with `m` the row maximum.
  jax computes `(out − m) − log Σ exp (out − m)`.

  Frames: both kernels run to the end and leave the four argument arrays as they were (the region's launch with the adjacency
  matrix's share cut between its two windows, the scratch tracked from the first step on); the reference is a straight line of
  host operations. The idealized kernel is the kernel's own text, so nothing is owed for the idealization. At the ideal values
  the kernel's two result arrays are, row by row, the layer's output and its softmax in the kernel's arrangement; the
  reference's are the same output and the softmax in jax's arrangement; on finite inputs every entry of the output and every
  row maximum is a real number, and then the two arrangements are the same real, `out − log Σ exp out`.
-/
import proofs.«143370_g44306882625586_cont_8to1c4_829_12_alg».proof.Defs
import proofs.«143370_g44306882625586_cont_8to1c4_829_12_alg».proof.Proof.Gen.Kernel
import proofs.«143370_g44306882625586_cont_8to1c4_829_12_alg».proof.Proof.Gen.KernelIdeal
import proofs.«143370_g44306882625586_cont_8to1c4_829_12_alg».proof.Proof.Gen.ReferenceIdeal
import proofs.«143370_g44306882625586_cont_8to1c4_829_12_alg».proof.Proof.Gen.Pre_finite_inputs
import proofs.«143370_g44306882625586_cont_8to1c4_829_12_alg».proof.Proof.KB.Frame
import proofs.«143370_g44306882625586_cont_8to1c4_829_12_alg».proof.Proof.KI.Final
import proofs.«143370_g44306882625586_cont_8to1c4_829_12_alg».proof.Proof.RefRead
import proofs.«143370_g44306882625586_cont_8to1c4_829_12_alg».proof.Proof.Finite
import Idealize.ShloMosaic.Adequacy
import Idealize.ShloMosaic.Init

noncomputable section

namespace Cert.Proof

open Idealize.ShloMosaic Idealize.ShloMosaic.TcCoe Idealize.SL.Sem GcnLayer

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2.2) (Cert.ReferenceIdeal.Hand.run (F := Ideal) m ρ)

/-- The idealization rewrote nothing. -/
theorem preserves : Cert.preserves_Kernel_KernelIdeal := trivial

/-- At the ideal values, from memories agreeing on the four arguments, both programs end with the layer's output and its
    logarithmic softmax: the kernel by its run, the reference by its run read index by index and, for the softmax, the
    agreement of the two arrangements on finite inputs. -/
theorem algebraic : Cert.algebraic_KernelIdeal_ReferenceIdeal := by
  intro m ρ m' ρ' hpre hagree
  refine ⟨_, _, Cert.KernelIdeal.Hand.run m ρ, ?_⟩
  refine (θ_run Cert.ReferenceIdeal.defs _ _).mono (fun _ h c => ?_) (Cert.ReferenceIdeal.Hand.run (F := Ideal) m' ρ')
  obtain ⟨h5, h4, h0, h1, h2, h3⟩ := h c
  obtain ⟨a0, a1, a2, a3⟩ := hagree c
  obtain ⟨rX, rA, rW, rb⟩ := Cert.Pre_finite_inputs.Hand.allReal_of_pre _ _ _ _ (hpre c)
  refine ⟨?_, ?_, h0, h1, h2, h3⟩
  · rw [h5, a0, a1, a2, a3, Cert.ReferenceIdeal.Hand.outTerm_eq, Cert.ReferenceIdeal.Hand.softmaxTerm_eq]
    funext i
    exact logpRef_eq_logp _ _ _ _ rX rA rW rb _ _
  · rw [h4, a0, a1, a2, a3, Cert.ReferenceIdeal.Hand.outTerm_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
